-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024 : Shape := ⟨1, ![1024]⟩
abbrev S3072x1024 : Shape := ⟨2, ![3072, 1024]⟩
abbrev S1024x1024 : Shape := ⟨2, ![1024, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S4x4096x1024 .f32) (main_arg1 : FVec F S1024 .f32) (main_arg2 : FVec F S3072x1024 .f32) (main_arg3 : FVec F S1024x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S3072x1024 .f32 := Host.absf main_arg2
  let main_cst_2 : FVec F S_ .f32 := constant S_ .f32 0x7F800000#32
  let main_v10 : FVec F S3072x1024 .f32 := broadcastInDim S3072x1024 ![] bcast_S_S3072x1024 main_cst_2
  let main_v11 : IVec S3072x1024 1 := cmpf .olt main_v9 main_v10
  let main_c_3 : IVec S_ 1 := constantI S_ 1 1#1
  let main_v12 : IVec S_ 1 := (fun x v => Host.reduce IntOp.andi x v reducesTo_S3072x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S4x4096x1024 : Shape := ⟨3, ![4, 4096, 1024]⟩
abbrev S1024 : Shape := ⟨1, ![1024]⟩
abbrev S3072x1024 : Shape := ⟨2, ![3072, 1024]⟩
abbrev S1024x1024 : Shape := ⟨2, ![1024, 1024]⟩
abbrev S1024x3072 : Shape := ⟨2, ![1024, 3072]⟩
abbrev S4x4096x3072 : Shape := ⟨3, ![4, 4096, 3072]⟩
abbrev S1x512x1024 : Shape := ⟨3, ![1, 512, 1024]⟩
abbrev S1x512x3072 : Shape := ⟨3, ![1, 512, 3072]⟩
abbrev S512x1024 : Shape := ⟨2, ![512, 1024]⟩
abbrev S512 : Shape := ⟨1, ![512]⟩
abbrev S512x1 : Shape := ⟨2, ![512, 1]⟩
abbrev S1x1024 : Shape := ⟨2, ![1, 1024]⟩
abbrev S512x3072 : Shape := ⟨2, ![512, 3072]⟩
abbrev S4x4096x16x64 : Shape := ⟨4, ![4, 4096, 16, 64]⟩
abbrev S4x16x4096x64 : Shape := ⟨4, ![4, 16, 4096, 64]⟩
abbrev S1x1x4096x64 : Shape := ⟨4, ![1, 1, 4096, 64]⟩
abbrev S4096x64 : Shape := ⟨2, ![4096, 64]⟩
abbrev S64 : Shape := ⟨1, ![64]⟩
abbrev S1x64 : Shape := ⟨2, ![1, 64]⟩
abbrev S64x64 : Shape := ⟨2, ![64, 64]⟩

abbrev nBuf : Space → Nat
  | .hbm => 22
  | .vmem => 21
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S3072x1024, .f32⟩
  | .hbm, ⟨3, _⟩ => ⟨S1024x1024, .f32⟩
  | .hbm, ⟨4, _⟩ => ⟨S1024x3072, .f32⟩
  | .hbm, ⟨5, _⟩ => ⟨S1024x3072, .bf16⟩
  | .hbm, ⟨6, _⟩ => ⟨S1024x1024, .f32⟩
  | .hbm, ⟨7, _⟩ => ⟨S1024x1024, .bf16⟩
  | .hbm, ⟨8, _⟩ => ⟨S4x4096x3072, .bf16⟩
  | .hbm, ⟨9, _⟩ => ⟨S4x4096x1024, .bf16⟩
  | .hbm, ⟨10, _⟩ => ⟨S4x4096x1024, .bf16⟩
  | .hbm, ⟨11, _⟩ => ⟨S4x4096x1024, .bf16⟩
  | .hbm, ⟨12, _⟩ => ⟨S4x4096x16x64, .bf16⟩
  | .hbm, ⟨13, _⟩ => ⟨S4x16x4096x64, .bf16⟩
  | .hbm, ⟨14, _⟩ => ⟨S4x4096x16x64, .bf16⟩
  | .hbm, ⟨15, _⟩ => ⟨S4x16x4096x64, .bf16⟩
  | .hbm, ⟨16, _⟩ => ⟨S4x4096x16x64, .bf16⟩
  | .hbm, ⟨17, _⟩ => ⟨S4x16x4096x64, .bf16⟩
  | .hbm, ⟨18, _⟩ => ⟨S4x16x4096x64, .bf16⟩
  | .hbm, ⟨19, _⟩ => ⟨S4x4096x16x64, .bf16⟩
  | .hbm, ⟨20, _⟩ => ⟨S4x4096x1024, .bf16⟩
  | .hbm, ⟨21, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024, .f32⟩
  | .local _ .vmem, ⟨3, _⟩ => ⟨S1024x3072, .bf16⟩
  | .local _ .vmem, ⟨4, _⟩ => ⟨S1x512x3072, .bf16⟩
  | .local _ .vmem, ⟨5, _⟩ => ⟨S1x512x3072, .bf16⟩
  | .local _ .vmem, ⟨6, _⟩ => ⟨S1x1x4096x64, .bf16⟩
  | .local _ .vmem, ⟨7, _⟩ => ⟨S1x1x4096x64, .bf16⟩
  | .local _ .vmem, ⟨8, _⟩ => ⟨S1x1x4096x64, .bf16⟩
  | .local _ .vmem, ⟨9, _⟩ => ⟨S1x1x4096x64, .bf16⟩
  | .local _ .vmem, ⟨10, _⟩ => ⟨S1x1x4096x64, .bf16⟩
  | .local _ .vmem, ⟨11, _⟩ => ⟨S1x1x4096x64, .bf16⟩
  | .local _ .vmem, ⟨12, _⟩ => ⟨S1x1x4096x64, .bf16⟩
  | .local _ .vmem, ⟨13, _⟩ => ⟨S1x1x4096x64, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x512x1024, .f32⟩
  | .local _ .vmem, ⟨17, _⟩ => ⟨S1x512x1024, .f32⟩
  | .local _ .vmem, ⟨18, _⟩ => ⟨S1024x1024, .bf16⟩
  | .local _ .vmem, ⟨19, _⟩ => ⟨S1x512x1024, .f32⟩
  | .local _ .vmem, ⟨20, _⟩ => ⟨S1x512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![4, 16], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x1x4096x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x4096x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x4096x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x4096x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![4, 8], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x512x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S1024x1024 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1x512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  transposes_S3072x1024_S1024x3072_1_0 : S3072x1024.Transposes [1, 0] S1024x3072
  bitsLt_bf16_f32 : FTy.bits .bf16 < FTy.bits .f32
  transposes_S1024x1024_S1024x1024_1_0 : S1024x1024.Transposes [1, 0] S1024x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  reduces_S512x1024_S512 : S512x1024.Reduces [1] S512
  shapeCasts_S512_S512x1 : S512.ShapeCasts S512x1
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  broadcasts_S512x1_S512x1024 : S512x1.Broadcasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x512x3072_S1x512x3072_0_0_0 : ∀ a, (![0, 0, 0] : Fin 3 → Nat) a + S1x512x3072.size a ≤ S1x512x3072.size a
  h_S1x512x3072 : 0 < S1x512x3072.numel
  shapeCasts_S1x512x3072_S512x3072 : S1x512x3072.ShapeCasts S512x3072
  shapeCasts_S512x3072_S1x512x3072 : S512x3072.ShapeCasts S1x512x3072
  packedbf16_S1x512x3072_S1x512x3072_0_0_0 : (Rect.unit (s := S1x512x3072) ![0, 0, 0] S1x512x3072.size inb_S1x512x3072_S1x512x3072_0_0_0).PackedRows (EltTy.packing .bf16)
  slices_S4x4096x3072_S4x4096x1024_0_0_0 : S4x4096x3072.Slices ![0, 0, 0] S4x4096x1024
  slices_S4x4096x3072_S4x4096x1024_0_0_1024 : S4x4096x3072.Slices ![0, 0, 1024] S4x4096x1024
  slices_S4x4096x3072_S4x4096x1024_0_0_2048 : S4x4096x3072.Slices ![0, 0, 2048] S4x4096x1024
  shapeCasts_S4x4096x1024_S4x4096x16x64 : S4x4096x1024.ShapeCasts S4x4096x16x64
  transposes_S4x4096x16x64_S4x16x4096x64_0_2_1_3 : S4x4096x16x64.Transposes [0, 2, 1, 3] S4x16x4096x64
  inb_S1x1x4096x64_S1x1x4096x64_0_0_0_0 : ∀ a, (![0, 0, 0, 0] : Fin 4 → Nat) a + S1x1x4096x64.size a ≤ S1x1x4096x64.size a
  h_S1x1x4096x64 : 0 < S1x1x4096x64.numel
  shapeCasts_S1x1x4096x64_S4096x64 : S1x1x4096x64.ShapeCasts S4096x64
  reduces_S4096x64_S64 : S4096x64.Reduces [0] S64
  shapeCasts_S64_S1x64 : S64.ShapeCasts S1x64
  broadcasts_S1x64_S4096x64 : S1x64.Broadcasts S4096x64
  shapeCasts_S4096x64_S1x1x4096x64 : S4096x64.ShapeCasts S1x1x4096x64
  packedbf16_S1x1x4096x64_S1x1x4096x64_0_0_0_0 : (Rect.unit (s := S1x1x4096x64) ![0, 0, 0, 0] S1x1x4096x64.size inb_S1x1x4096x64_S1x1x4096x64_0_0_0_0).PackedRows (EltTy.packing .bf16)
  transposes_S4x16x4096x64_S4x4096x16x64_0_2_1_3 : S4x16x4096x64.Transposes [0, 2, 1, 3] S4x4096x16x64
  shapeCasts_S4x4096x16x64_S4x4096x1024 : S4x4096x16x64.ShapeCasts S4x4096x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S512x1024_S1x512x1024 : S512x1024.ShapeCasts S1x512x1024
  dot_S512x1024_S1024x3072_S512x3072_1_0_0_1_n_n_wf : DotDims.WF S512x1024 S1024x3072 S512x3072 [1] [0] [0] [1] [] []
  dot_S4096x64_S4096x64_S64x64_0_0_1_1_n_n_wf : DotDims.WF S4096x64 S4096x64 S64x64 [0] [0] [1] [1] [] []
  dot_S4096x64_S64x64_S4096x64_1_0_0_1_n_n_wf : DotDims.WF S4096x64 S64x64 S4096x64 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x4096x1024.size a
  hwx0_0 : ∀ i : grid0.Coords, EltTy.bits .f32 = 32 ∨ (Rect.block (s := S4x4096x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024.size a ≤ S1024.size a
  hwx0_1 : ∀ i : grid0.Coords, EltTy.bits .f32 = 32 ∨ (Rect.block (s := S1024) S1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x3072.size a ≤ S1024x3072.size a
  hwx0_2 : ∀ i : grid0.Coords, EltTy.bits .bf16 = 32 ∨ (Rect.block (s := S1024x3072) S1024x3072.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x3072.size a ≤ S4x4096x3072.size a
  hwx0_3 : ∀ i : grid0.Coords, EltTy.bits .bf16 = 32 ∨ (Rect.block (s := S4x4096x3072) S1x512x3072.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x4096x64.size a ≤ S4x16x4096x64.size a
  hwx1_0 : ∀ i : grid1.Coords, EltTy.bits .bf16 = 32 ∨ (Rect.block (s := S4x16x4096x64) S1x1x4096x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x4096x64.size a ≤ S4x16x4096x64.size a
  hwx1_1 : ∀ i : grid1.Coords, EltTy.bits .bf16 = 32 ∨ (Rect.block (s := S4x16x4096x64) S1x1x4096x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x4096x64.size a ≤ S4x16x4096x64.size a
  hwx1_2 : ∀ i : grid1.Coords, EltTy.bits .bf16 = 32 ∨ (Rect.block (s := S4x16x4096x64) S1x1x4096x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x4096x64.size a ≤ S4x16x4096x64.size a
  hwx1_3 : ∀ i : grid1.Coords, EltTy.bits .bf16 = 32 ∨ (Rect.block (s := S4x16x4096x64) S1x1x4096x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x512x1024.size a ≤ S4x4096x1024.size a
  hwx2_0 : ∀ i : grid2.Coords, EltTy.bits .bf16 = 32 ∨ (Rect.block (s := S4x4096x1024) S1x512x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x512x1024.size a ≤ S4x4096x1024.size a
  hwx2_1 : ∀ i : grid2.Coords, EltTy.bits .f32 = 32 ∨ (Rect.block (s := S4x4096x1024) S1x512x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S1024x1024.size a
  hwx2_2 : ∀ i : grid2.Coords, EltTy.bits .bf16 = 32 ∨ (Rect.block (s := S1024x1024) S1024x1024.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x512x1024.size a ≤ S4x4096x1024.size a
  hwx2_3 : ∀ i : grid2.Coords, EltTy.bits .f32 = 32 ∨ (Rect.block (s := S4x4096x1024) S1x512x1024.size (cc2_transform_3 i) (hinb2_3 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S4096x64_S4096x64_S64x64_0_0_1_1_n_n : DotDims S4096x64 S4096x64 S64x64 where
  lhsContracting := [0]
  rhsContracting := [0]
  lhsNonContracting := [1]
  rhsNonContracting := [1]
  lhsBatch := []
  rhsBatch := []
  wf := dot_S4096x64_S4096x64_S64x64_0_0_1_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x512x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v9) S1x1x4096x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1x1x4096x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x1x4096x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v14) S1x1x4096x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v16) S1x512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S1x512x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1024x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v17) S1x512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x4096x1024 : Shape := ⟨3, ![4, 4096, 1024]⟩
abbrev S1024 : Shape := ⟨1, ![1024]⟩
abbrev S3072x1024 : Shape := ⟨2, ![3072, 1024]⟩
abbrev S1024x1024 : Shape := ⟨2, ![1024, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x3072 : Shape := ⟨3, ![4, 4096, 3072]⟩
abbrev S4x4096x3x16x64 : Shape := ⟨5, ![4, 4096, 3, 16, 64]⟩
abbrev S3x4x16x4096x64 : Shape := ⟨5, ![3, 4, 16, 4096, 64]⟩
abbrev S1x4x16x4096x64 : Shape := ⟨5, ![1, 4, 16, 4096, 64]⟩
abbrev S4x16x4096x64 : Shape := ⟨4, ![4, 16, 4096, 64]⟩
abbrev S4x16x64 : Shape := ⟨3, ![4, 16, 64]⟩
abbrev S4x16x1x64 : Shape := ⟨4, ![4, 16, 1, 64]⟩
abbrev S4x16x64x64 : Shape := ⟨4, ![4, 16, 64, 64]⟩
abbrev S4x4096x16x64 : Shape := ⟨4, ![4, 4096, 16, 64]⟩

abbrev nBuf : Space → Nat
  | .hbm => 52
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S3072x1024, .f32⟩
  | .hbm, ⟨3, _⟩ => ⟨S1024x1024, .f32⟩
  | .hbm, ⟨4, _⟩ => ⟨S4x4096x1024, .f32⟩
  | .hbm, ⟨5, _⟩ => ⟨S_, .f32⟩
  | .hbm, ⟨6, _⟩ => ⟨S4x4096, .f32⟩
  | .hbm, ⟨7, _⟩ => ⟨S4x4096x1, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S1x1x1024, .f32⟩
  | .hbm, ⟨13, _⟩ => ⟨S4x4096x1024, .f32⟩
  | .hbm, ⟨14, _⟩ => ⟨S4x4096x1024, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S4x4096x1024, .f32⟩
  | .hbm, ⟨19, _⟩ => ⟨S4x4096x1024, .f32⟩
  | .hbm, ⟨20, _⟩ => ⟨S4x4096x3072, .f32⟩
  | .hbm, ⟨21, _⟩ => ⟨S4x4096x3x16x64, .f32⟩
  | .hbm, ⟨22, _⟩ => ⟨S3x4x16x4096x64, .f32⟩
  | .hbm, ⟨23, _⟩ => ⟨S1x4x16x4096x64, .f32⟩
  | .hbm, ⟨24, _⟩ => ⟨S4x16x4096x64, .f32⟩
  | .hbm, ⟨25, _⟩ => ⟨S1x4x16x4096x64, .f32⟩
  | .hbm, ⟨26, _⟩ => ⟨S4x16x4096x64, .f32⟩
  | .hbm, ⟨27, _⟩ => ⟨S1x4x16x4096x64, .f32⟩
  | .hbm, ⟨28, _⟩ => ⟨S4x16x4096x64, .f32⟩
  | .hbm, ⟨29, _⟩ => ⟨S_, .f32⟩
  | .hbm, ⟨30, _⟩ => ⟨S4x16x4096x64, .f32⟩
  | .hbm, ⟨31, _⟩ => ⟨S4x16x4096x64, .f32⟩
  | .hbm, ⟨32, _⟩ => ⟨S_, .f32⟩
  | .hbm, ⟨33, _⟩ => ⟨S4x16x64, .f32⟩
  | .hbm, ⟨34, _⟩ => ⟨S_, .f32⟩
  | .hbm, ⟨35, _⟩ => ⟨S4x16x64, .f32⟩
  | .hbm, ⟨36, _⟩ => ⟨S4x16x64, .f32⟩
  | .hbm, ⟨37, _⟩ => ⟨S4x16x1x64, .f32⟩
  | .hbm, ⟨38, _⟩ => ⟨S4x16x4096x64, .f32⟩
  | .hbm, ⟨39, _⟩ => ⟨S4x16x4096x64, .f32⟩
  | .hbm, ⟨40, _⟩ => ⟨S4x16x4096x64, .f32⟩
  | .hbm, ⟨41, _⟩ => ⟨S_, .f32⟩
  | .hbm, ⟨42, _⟩ => ⟨S4x16x64, .f32⟩
  | .hbm, ⟨43, _⟩ => ⟨S4x16x1x64, .f32⟩
  | .hbm, ⟨44, _⟩ => ⟨S4x16x4096x64, .f32⟩
  | .hbm, ⟨45, _⟩ => ⟨S4x16x4096x64, .f32⟩
  | .hbm, ⟨46, _⟩ => ⟨S4x16x64x64, .f32⟩
  | .hbm, ⟨47, _⟩ => ⟨S4x16x4096x64, .f32⟩
  | .hbm, ⟨48, _⟩ => ⟨S4x4096x16x64, .f32⟩
  | .hbm, ⟨49, _⟩ => ⟨S4x4096x1024, .f32⟩
  | .hbm, ⟨50, _⟩ => ⟨S4x4096x1024, .f32⟩
  | .hbm, ⟨51, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩

abbrev nD : Nat := 1
abbrev τ : Topo := Topo.v7x

variable {F : FTy → Type} [FloatOps F]

class Facts₀ : Prop where
  reducesTo_S4x4096x1024_S4x4096_d2 : S4x4096x1024.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S1024_S1x1x1024_2 : S1024.BroadcastsInDim S1x1x1024 (![2] : Fin 1 → Fin S1x1x1024.rank)
  bcast_S1x1x1024_S4x4096x1024_0_1_2 : S1x1x1024.BroadcastsInDim S4x4096x1024 (![0, 1, 2] : Fin 3 → Fin S4x4096x1024.rank)
  bcast_S4x4096x1_S4x4096x1024_0_1_2 : S4x4096x1.BroadcastsInDim S4x4096x1024 (![0, 1, 2] : Fin 3 → Fin S4x4096x1024.rank)
  shapeCasts_S4x4096x3072_S4x4096x3x16x64 : S4x4096x3072.ShapeCasts S4x4096x3x16x64
  transposes_S4x4096x3x16x64_S3x4x16x4096x64_2_0_3_1_4 : S4x4096x3x16x64.Transposes [2, 0, 3, 1, 4] S3x4x16x4096x64
  slices_S3x4x16x4096x64_S1x4x16x4096x64_0_0_0_0_0 : S3x4x16x4096x64.Slices ![0, 0, 0, 0, 0] S1x4x16x4096x64
  shapeCasts_S1x4x16x4096x64_S4x16x4096x64 : S1x4x16x4096x64.ShapeCasts S4x16x4096x64
  slices_S3x4x16x4096x64_S1x4x16x4096x64_1_0_0_0_0 : S3x4x16x4096x64.Slices ![1, 0, 0, 0, 0] S1x4x16x4096x64
  slices_S3x4x16x4096x64_S1x4x16x4096x64_2_0_0_0_0 : S3x4x16x4096x64.Slices ![2, 0, 0, 0, 0] S1x4x16x4096x64
  bcast_S_S4x16x4096x64 : S_.BroadcastsInDim S4x16x4096x64 (![] : Fin 0 → Fin S4x16x4096x64.rank)
  reducesTo_S4x16x4096x64_S4x16x64_d2 : S4x16x4096x64.ReducesTo [2] S4x16x64
  bcast_S_S4x16x64 : S_.BroadcastsInDim S4x16x64 (![] : Fin 0 → Fin S4x16x64.rank)
  bcast_S4x16x64_S4x16x1x64_0_1_3 : S4x16x64.BroadcastsInDim S4x16x1x64 (![0, 1, 3] : Fin 3 → Fin S4x16x1x64.rank)
  bcast_S4x16x1x64_S4x16x4096x64_0_1_2_3 : S4x16x1x64.BroadcastsInDim S4x16x4096x64 (![0, 1, 2, 3] : Fin 4 → Fin S4x16x4096x64.rank)
  transposes_S4x16x4096x64_S4x4096x16x64_0_2_1_3 : S4x16x4096x64.Transposes [0, 2, 1, 3] S4x4096x16x64
  shapeCasts_S4x4096x16x64_S4x4096x1024 : S4x4096x16x64.ShapeCasts S4x4096x1024
  dot_S4x4096x1024_S3072x1024_S4x4096x3072_2_1_01_0_n_n_wf : DotDims.WF S4x4096x1024 S3072x1024 S4x4096x3072 [2] [1] [0, 1] [0] [] []
  dot_S4x16x4096x64_S4x16x4096x64_S4x16x64x64_2_2_3_3_01_01_wf : DotDims.WF S4x16x4096x64 S4x16x4096x64 S4x16x64x64 [2] [2] [3] [3] [0, 1] [0, 1]
  dot_S4x16x4096x64_S4x16x64x64_S4x16x4096x64_3_2_2_3_01_01_wf : DotDims.WF S4x16x4096x64 S4x16x64x64 S4x16x4096x64 [3] [2] [2] [3] [0, 1] [0, 1]
  dot_S4x4096x1024_S1024x1024_S4x4096x1024_2_1_01_0_n_n_wf : DotDims.WF S4x4096x1024 S1024x1024 S4x4096x1024 [2] [1] [0, 1] [0] [] []

variable [Facts₀]

def dot_S4x4096x1024_S3072x1024_S4x4096x3072_2_1_01_0_n_n : DotDims S4x4096x1024 S3072x1024 S4x4096x3072 where
  lhsContracting := [2]
  rhsContracting := [1]
  lhsNonContracting := [0, 1]
  rhsNonContracting := [0]
  lhsBatch := []
  rhsBatch := []
  wf := dot_S4x4096x1024_S3072x1024_S4x4096x3072_2_1_01_0_n_n_wf
def dot_S4x16x4096x64_S4x16x4096x64_S4x16x64x64_2_2_3_3_01_01 : DotDims S4x16x4096x64 S4x16x4096x64 S4x16x64x64 where
  lhsContracting := [2]
  rhsContracting := [2]
  lhsNonContracting := [3]
  rhsNonContracting := [3]
  lhsBatch := [0, 1]
  rhsBatch := [0, 1]
  wf := dot_S4x16x4096x64_S4x16x4096x64_S4x16x64x64_2_2_3_3_01_01_wf
def dot_S4x16x4096x64_S4x16x64x64_S4x16x4096x64_3_2_2_3_01_01 : DotDims S4x16x4096x64 S4x16x64x64 S4x16x4096x64 where
  lhsContracting := [3]
  rhsContracting := [2]
  lhsNonContracting := [2]
  rhsNonContracting := [3]
  lhsBatch := [0, 1]
  rhsBatch := [0, 1]
  wf := dot_S4x16x4096x64_S4x16x64x64_S4x16x4096x64_3_2_2_3_01_01_wf
def dot_S4x4096x1024_S1024x1024_S4x4096x1024_2_1_01_0_n_n : DotDims S4x4096x1024 S1024x1024 S4x4096x1024 where
  lhsContracting := [2]
  rhsContracting := [1]
  lhsNonContracting := [0, 1]
  rhsNonContracting := [0]
  lhsBatch := []
  rhsBatch := []
  wf := dot_S4x4096x1024_S1024x1024_S4x4096x1024_2_1_01_0_n_n_wf

class Facts : Prop extends Facts₀ where

variable [Facts]
-- ==== Proof.Spec.lean ====
/-
  What the two programs compute, stage by stage, on the extended reals — stated once, over literal shapes, with no
  program imported.

  Stage 1 (normalise and project). For a row `(b, t)` of `x : [4, 4096, 1024]` let `ss = Σ_k x[b,t,k]²`. The
  normalised row is `(w[d] · x[b,t,d]) / den`, where the denominator `den` is a parameter: one program takes
  `√(ss / 1024) + ε`, the other `√ss · (1/32) + ε` (`denK`, `denR`; they are equal, `Proof/SpecLaw.lean`). The projection
  is the contraction of the normalised row with a `[1024, 3072]` matrix: `stage1`.

  Stage 2 (linear attention per batch `b` and head `h`). The projection's 3072 columns are three groups of 1024 (queries,
  keys, values), each 16 heads of 64 (`heads g`). The keys, scaled by 1/8, are normalised by a softmax ALONG THE
  SEQUENCE: `exp(k − max_t k) / Σ_t exp(k − max_t k)` (`knorm`); the context is `ctx[d, e] = Σ_t knorm[t, d] · v[t, e]`
  and the output `Σ_d q[t, d] · ctx[d, e]`: `stage2`. `flat` puts the heads back side by side.

  Stage 3 (output projection and residual). `x[b,t,e] + Σ_d a[b,t,d] · W[d,e]`: `stage3`.

  `whole den x w Wqkv Wout` composes them, the two weight matrices transposed (`tr`).
-/
import Idealize.ShloMosaic.PureOps.Ideal
import Idealize.ShloMosaic.Lib.ValueIdx

noncomputable section

namespace Cert.Spec

open Idealize.ShloMosaic Idealize.ShloMosaic.ValueIdx
open scoped BigOperators

abbrev SX : Shape := ⟨3, ![4, 4096, 1024]⟩
abbrev SQ : Shape := ⟨3, ![4, 4096, 3072]⟩
abbrev SV : Shape := ⟨1, ![1024]⟩
abbrev SWq : Shape := ⟨2, ![3072, 1024]⟩
abbrev SWqT : Shape := ⟨2, ![1024, 3072]⟩
abbrev SWo : Shape := ⟨2, ![1024, 1024]⟩
abbrev SH : Shape := ⟨4, ![4, 16, 4096, 64]⟩

/-- The float words the programs spell, as the extended reals they denote. -/
def eps : EReal := Ideal.ofBits .f32 0x322BCC77#32
def n1024 : EReal := Ideal.ofBits .f32 0x44800000#32
def r32 : EReal := Ideal.ofBits .f32 0x3D000000#32
def r8 : EReal := Ideal.ofBits .f32 0x3E000000#32
def ninf : EReal := Ideal.ofBits .f32 0xFF800000#32

/-- A matrix transposed. -/
def tr {n m : Nat} (w : (⟨2, ![n, m]⟩ : Shape).Idx → EReal) : (⟨2, ![m, n]⟩ : Shape).Idx → EReal :=
  fun j => w (ix2 (j 1) (j 0))

/-! ## Stage 1 -/

/-- The sum of squares of row `(b, t)`. -/
def ss (x : SX.Idx → EReal) (b : Fin 4) (t : Fin 4096) : EReal := ∑ k : Fin 1024, x (ix3 b t k) * x (ix3 b t k)

/-- The denominator as one program takes it: the root of the MEAN square, plus ε. -/
def denK (x : SX.Idx → EReal) (b : Fin 4) (t : Fin 4096) : EReal := Ideal.sqrt (Ideal.div (ss x b t) n1024) + eps

/-- The denominator as the other takes it: the root of the sum, times 1/32, plus ε. -/
def denR (x : SX.Idx → EReal) (b : Fin 4) (t : Fin 4096) : EReal := Ideal.sqrt (ss x b t) * r32 + eps

/-- The normalised row. -/
def xn (den : (SX.Idx → EReal) → Fin 4 → Fin 4096 → EReal) (x : SX.Idx → EReal) (w : SV.Idx → EReal)
    (b : Fin 4) (t : Fin 4096) (d : Fin 1024) : EReal :=
  Ideal.div (w (ix1 d) * x (ix3 b t d)) (den x b t)

/-- The projection of the normalised rows by a `[1024, 3072]` matrix. -/
def stage1 (den : (SX.Idx → EReal) → Fin 4 → Fin 4096 → EReal) (x : SX.Idx → EReal) (w : SV.Idx → EReal)
    (wT : SWqT.Idx → EReal) : SQ.Idx → EReal :=
  fun i => ∑ d : Fin 1024, xn den x w (i 0) (i 1) d * wT (ix2 d (i 2))

/-! ## Stage 2 -/

/-- Group `g` (0 queries, 1 keys, 2 values) of the projection, head by head: `[b, h, t, d] ↦ Q[b, t, g·1024 + h·64 + d]`. -/
def heads (g : Fin 3) (Q : SQ.Idx → EReal) : SH.Idx → EReal :=
  fun j => Q (ix3 (j 0) (j 2) ⟨g.val * 1024 + (j 1).val * 64 + (j 3).val, by
    have h1 : (j 1).val < 16 := (j 1).isLt
    have h3 : (j 3).val < 64 := (j 3).isLt
    have hg : g.val < 3 := g.isLt
    omega⟩)

/-- The heads side by side again: `[b, t, e] ↦ A[b, e / 64, t, e % 64]`. -/
def flat (A : SH.Idx → EReal) : SX.Idx → EReal :=
  fun j => A (ix4 (j 0) ⟨(j 2).val / 64, by have h2 : (j 2).val < 1024 := (j 2).isLt; omega⟩ (j 1)
    ⟨(j 2).val % 64, Nat.mod_lt _ (by decide)⟩)

/-- A key entry scaled by 1/8. -/
def kscaled (k : SH.Idx → EReal) (b : Fin 4) (h : Fin 16) (t : Fin 4096) (d : Fin 64) : EReal := k (ix4 b h t d) * r8

/-- The maximum of the scaled keys along the sequence, from −∞. -/
def kmax (k : SH.Idx → EReal) (b : Fin 4) (h : Fin 16) (d : Fin 64) : EReal :=
  (Finset.univ : Finset (Fin 4096)).fold max ninf (fun t => kscaled k b h t d)

def kexp (k : SH.Idx → EReal) (b : Fin 4) (h : Fin 16) (t : Fin 4096) (d : Fin 64) : EReal :=
  Ideal.exp (kscaled k b h t d - kmax k b h d)

/-- The keys after the softmax along the sequence. -/
def knorm (k : SH.Idx → EReal) (b : Fin 4) (h : Fin 16) (t : Fin 4096) (d : Fin 64) : EReal :=
  Ideal.div (kexp k b h t d) (∑ t' : Fin 4096, kexp k b h t' d)

/-- The context matrix of batch `b`, head `h`. -/
def ctx (k v : SH.Idx → EReal) (b : Fin 4) (h : Fin 16) (d e : Fin 64) : EReal :=
  ∑ t : Fin 4096, knorm k b h t d * v (ix4 b h t e)

def stage2 (q k v : SH.Idx → EReal) : SH.Idx → EReal :=
  fun i => ∑ d : Fin 64, q (ix4 (i 0) (i 1) (i 2) d) * ctx k v (i 0) (i 1) d (i 3)

/-! ## Stage 3 -/

def stage3 (a x : SX.Idx → EReal) (wT : SWo.Idx → EReal) : SX.Idx → EReal :=
  fun i => x i + ∑ d : Fin 1024, a (ix3 (i 0) (i 1) d) * wT (ix2 d (i 2))

/-! ## The whole -/

def attn (Q : SQ.Idx → EReal) : SX.Idx → EReal := flat (stage2 (heads 0 Q) (heads 1 Q) (heads 2 Q))

def whole (den : (SX.Idx → EReal) → Fin 4 → Fin 4096 → EReal) (x : SX.Idx → EReal) (w : SV.Idx → EReal)
    (wq : SWq.Idx → EReal) (wo : SWo.Idx → EReal) : SX.Idx → EReal :=
  stage3 (attn (stage1 den x w (tr wq))) x (tr wo)

end Cert.Spec

end
-- ==== Proof.SpecLaw.lean ====
/-
  The one law that joins the two programs: for a sum of squares `S` (so `0 ≤ S`, also when entries are infinite),
  `√(S / 1024) = √S · (1/32)` on the extended reals — on a real `S ≥ 0` because `1024 = 32²`, at `S = ⊤` because both sides are `⊤`.
  Hence the two denominators of `Spec` are one function, and so are the two wholes.
-/
import proofs.«180778_j58944131170446_1_alg».proof.Proof.Spec

noncomputable section

namespace Cert.Spec

open Idealize.ShloMosaic Idealize.ShloMosaic.ValueIdx
open scoped BigOperators

/-- The word `1024.0` denotes the real 1024. -/
theorem n1024_eq : n1024 = ((1024 : ℝ) : EReal) := by
  unfold n1024
  simp [Ideal.ofBits, Ideal.ieee, -EReal.coe_mul]; norm_num

/-- The word `0.03125` denotes the real 1/32. -/
theorem r32_eq : r32 = ((1 / 32 : ℝ) : EReal) := by
  unfold r32
  simp [Ideal.ofBits, Ideal.ieee, -EReal.coe_mul]; norm_num

/-- A square is nonnegative on the extended reals: `⊥ · ⊥ = ⊤`. -/
theorem mul_self_nonneg' (a : EReal) : 0 ≤ a * a := by
  induction a using EReal.rec
  · rw [EReal.bot_mul_bot]; exact le_top
  · rename_i r
    rw [← EReal.coe_mul]; exact EReal.coe_nonneg.mpr (mul_self_nonneg r)
  · rw [EReal.top_mul_top]; exact le_top

theorem ss_nonneg (x : SX.Idx → EReal) (b : Fin 4) (t : Fin 4096) : 0 ≤ ss x b t :=
  Finset.sum_nonneg fun _ _ => mul_self_nonneg' _

/-- The root of a nonnegative quantity over 1024 is its root over 32. -/
theorem sqrt_div_1024 (S : EReal) (hS : 0 ≤ S) : Ideal.sqrt (Ideal.div S n1024) = Ideal.sqrt S * r32 := by
  rw [n1024_eq, r32_eq, Ideal.div_coe (by norm_num : (1024 : ℝ) ≠ 0)]
  induction S using EReal.rec
  · exact absurd hS (by simp)
  · rename_i r
    have hr : 0 ≤ r := EReal.coe_nonneg.mp hS
    have hr' : ¬ r * (1 / 1024) < 0 := not_lt.mpr (by positivity)
    rw [← EReal.coe_mul, Ideal.sqrt_coe, Ideal.sqrt_coe, if_neg hr', if_neg (not_lt.mpr hr), ← EReal.coe_mul]
    congr 1
    rw [Real.sqrt_mul hr, show (1 / 1024 : ℝ) = (1 / 32) ^ 2 by norm_num, Real.sqrt_sq (by norm_num)]
  · rw [EReal.top_mul_coe_of_pos (by norm_num), Ideal.sqrt_top, EReal.top_mul_coe_of_pos (by norm_num)]

/-- The two denominators are one function. -/
theorem den_eq : denK = denR := by
  funext x b t
  unfold denK denR
  rw [sqrt_div_1024 _ (ss_nonneg x b t)]

/-- So the two wholes are one function. -/
theorem whole_den_eq : whole denK = whole denR := by rw [den_eq]

end Cert.Spec

end
-- ==== Proof.KRun.lean ====
/-
  The idealized kernel's run with its result NAMED. The program is three regions among stretches of host operations;
  every unscoped buffer ends at the last boundary's contents (the fold of the stretches and the regions' write-backs
  from the launch memory), so the result buffer ends at that fold read at the result, and the arguments as launched.
-/
import proofs.«180778_j58944131170446_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and the four argument arrays as launched. -/
theorem run : θ_run defs (onTc (τ := τ) (main (F := F))) ⟨m, fun _ => 0, ρ⟩ (fun r => ∀ c : Dev nD,
      r.2.mem ((c.tc : Thread nD τ).loc main_v17) = W6 m ρ c (Proc.devRef .tc main_v17)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v17 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c)⟩)

end Cert.KernelIdeal.KRun

end
-- ==== Proof.Glue.lean ====
/-
  The host operations between the regions, read from ANY contents `W` of the buffers they start from:
  the first stretch transposes the two weight matrices (a change of float format is the identity on the extended reals);
  the second cuts the projection into queries, keys and values and lays each out head by head
  (`[b, h, t, d] ↦ Q[b, t, g·1024 + h·64 + d]`: a slice, a reshape and a transpose);
  the third puts the heads side by side again (`[b, t, e] ↦ A[b, e / 64, t, e % 64]`: a transpose and a reshape).
  Buffers a stretch does not write keep their contents.
-/
import proofs.«180778_j58944131170446_1_alg».proof.Proof.Gen.KernelIdeal.Frame
import proofs.«180778_j58944131170446_1_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.Glue

open Idealize.ShloMosaic Idealize.ShloMosaic.TcCoe Idealize.ShloMosaic.ValueIdx Idealize.SL.Sem Idealize.ShloMosaic.StableHlo
open Cert.KernelIdeal Cert.KernelIdeal.Gen

variable (W : Valuation τ sig (Elt Ideal))

/-! ## The first stretch -/

theorem host0_arg0 : after (hostOps0 (F := Ideal)) W (Proc.devRef .tc main_arg0) = W (Proc.devRef .tc main_arg0) := by
  dsimp only [hostOps0]; after_results

theorem host0_arg1 : after (hostOps0 (F := Ideal)) W (Proc.devRef .tc main_arg1) = W (Proc.devRef .tc main_arg1) := by
  dsimp only [hostOps0]; after_results

theorem host0_v1 : after (hostOps0 (F := Ideal)) W (Proc.devRef .tc main_v1)
    = Cert.Spec.tr (n := 3072) (m := 1024) (W (Proc.devRef .tc main_arg2)) := by
  dsimp only [hostOps0]; after_results
  funext j
  exact transpose_apply [1, 0] _ _ j (ix2 (j 1) (j 0)) (fun b => by match b with | ⟨0, _⟩ => rfl | ⟨1, _⟩ => rfl)

theorem host0_v3 : after (hostOps0 (F := Ideal)) W (Proc.devRef .tc main_v3)
    = Cert.Spec.tr (n := 1024) (m := 1024) (W (Proc.devRef .tc main_arg3)) := by
  dsimp only [hostOps0]; after_results
  funext j
  exact transpose_apply [1, 0] _ _ j (ix2 (j 1) (j 0)) (fun b => by match b with | ⟨0, _⟩ => rfl | ⟨1, _⟩ => rfl)

/-! ## The second stretch -/

/-- A slice of the projection's columns at `g·1024`, its 1024 columns recast as 16 heads of 64 and the head axis moved
    in front of the sequence axis, is group `g` of the projection head by head. -/
theorem heads_read (g : Fin 3) (Q : S4x4096x3072.Idx → EReal) (off2 : Nat) (hoff : off2 = g.val * 1024)
    (hs : S4x4096x3072.Slices ![0, 0, off2] S4x4096x1024) :
    transpose S4x16x4096x64 [0, 2, 1, 3]
        (shapeCast S4x4096x16x64 (extractStridedSlice S4x4096x1024 ![0, 0, off2] Q hs) shapeCasts_S4x4096x1024_S4x4096x16x64)
        transposes_S4x4096x16x64_S4x16x4096x64_0_2_1_3
      = Cert.Spec.heads g Q := by
  funext j
  obtain ⟨b, h, t, d, rfl⟩ : ∃ (b : Fin 4) (h : Fin 16) (t : Fin 4096) (d : Fin 64), j = ix4 b h t d :=
    ⟨j 0, j 1, j 2, j 3, eq_ix4 j⟩
  have hh : h.val < 16 := h.isLt
  have hd : d.val < 64 := d.isLt
  have hg : g.val < 3 := g.isLt
  refine (transpose_apply [0, 2, 1, 3] _ _ (ix4 b h t d) (ix4 b t h d) (fun a => by
    match a with | ⟨0, _⟩ => rfl | ⟨1, _⟩ => rfl | ⟨2, _⟩ => rfl | ⟨3, _⟩ => rfl)).trans ?_
  refine (shapeCast_apply _ _ (ix4 b t h d) (ix3 b t (⟨h.val * 64 + d.val, by omega⟩ : Fin 1024)) (by
    rw [Shape.rowMajor_val_three, Shape.rowMajor_val_four]
    show (b.val * 4096 + t.val) * 1024 + (h.val * 64 + d.val) = ((b.val * 4096 + t.val) * 16 + h.val) * 64 + d.val
    omega)).trans ?_
  refine (extractStridedSlice_apply ![0, 0, off2] Q hs _ (ix3 b t (⟨g.val * 1024 + h.val * 64 + d.val, by omega⟩ : Fin 3072)) (fun a => by
    match a with
    | ⟨0, _⟩ => show b.val = 0 + b.val; omega
    | ⟨1, _⟩ => show t.val = 0 + t.val; omega
    | ⟨2, _⟩ => show g.val * 1024 + h.val * 64 + d.val = off2 + (h.val * 64 + d.val); omega)).trans ?_
  rfl

theorem host1_v9 : after (hostOps1 (F := Ideal)) W (Proc.devRef .tc main_v9) = Cert.Spec.heads 0 (W (Proc.devRef .tc main_v4)) := by
  dsimp only [hostOps1]; after_results
  exact heads_read 0 _ 0 rfl _

theorem host1_v11 : after (hostOps1 (F := Ideal)) W (Proc.devRef .tc main_v11) = Cert.Spec.heads 1 (W (Proc.devRef .tc main_v4)) := by
  dsimp only [hostOps1]; after_results
  exact heads_read 1 _ 1024 rfl _

theorem host1_v13 : after (hostOps1 (F := Ideal)) W (Proc.devRef .tc main_v13) = Cert.Spec.heads 2 (W (Proc.devRef .tc main_v4)) := by
  dsimp only [hostOps1]; after_results
  exact heads_read 2 _ 2048 rfl _

theorem host1_v3 : after (hostOps1 (F := Ideal)) W (Proc.devRef .tc main_v3) = W (Proc.devRef .tc main_v3) := by
  dsimp only [hostOps1]; after_results

theorem host1_arg0 : after (hostOps1 (F := Ideal)) W (Proc.devRef .tc main_arg0) = W (Proc.devRef .tc main_arg0) := by
  dsimp only [hostOps1]; after_results

/-! ## The third stretch -/

/-- The head axis moved back behind the sequence axis and the 16 heads of 64 recast as 1024 columns. -/
theorem flat_read (A : S4x16x4096x64.Idx → EReal) :
    shapeCast S4x4096x1024 (transpose S4x4096x16x64 [0, 2, 1, 3] A transposes_S4x16x4096x64_S4x4096x16x64_0_2_1_3)
        shapeCasts_S4x4096x16x64_S4x4096x1024
      = Cert.Spec.flat A := by
  funext j
  obtain ⟨b, t, e, rfl⟩ : ∃ (b : Fin 4) (t : Fin 4096) (e : Fin 1024), j = ix3 b t e := ⟨j 0, j 1, j 2, eq_ix3 j⟩
  have he : e.val < 1024 := e.isLt
  refine (shapeCast_apply _ _ (ix3 b t e) (ix4 b t (⟨e.val / 64, by omega⟩ : Fin 16) (⟨e.val % 64, by omega⟩ : Fin 64)) (by
    rw [Shape.rowMajor_val_three, Shape.rowMajor_val_four]
    show ((b.val * 4096 + t.val) * 16 + e.val / 64) * 64 + e.val % 64 = (b.val * 4096 + t.val) * 1024 + e.val
    omega)).trans ?_
  refine (transpose_apply [0, 2, 1, 3] A _ _ (ix4 b (⟨e.val / 64, by omega⟩ : Fin 16) t (⟨e.val % 64, by omega⟩ : Fin 64)) (fun a => by
    match a with | ⟨0, _⟩ => rfl | ⟨1, _⟩ => rfl | ⟨2, _⟩ => rfl | ⟨3, _⟩ => rfl)).trans ?_
  rfl

theorem host2_v16 : after (hostOps2 (F := Ideal)) W (Proc.devRef .tc main_v16) = Cert.Spec.flat (W (Proc.devRef .tc main_v14)) := by
  dsimp only [hostOps2]; after_results
  exact flat_read _

theorem host2_v3 : after (hostOps2 (F := Ideal)) W (Proc.devRef .tc main_v3) = W (Proc.devRef .tc main_v3) := by
  dsimp only [hostOps2]; after_results

theorem host2_arg0 : after (hostOps2 (F := Ideal)) W (Proc.devRef .tc main_arg0) = W (Proc.devRef .tc main_arg0) := by
  dsimp only [hostOps2]; after_results

end Cert.KernelIdeal.Glue

end
-- ==== Proof.LibMatmulPlain.lean ====
/-
  A matrix product into a zero accumulator, read at an entry, on the extended reals.

  For the plain dimension numbers (contract the left operand's axis 1 with the right operand's axis 0, no batch
  axes: an M x K matrix times a K x N matrix), the entry (p, q) of the product accumulated into the zero matrix is
  the sum over k of left (p, k) times right (k, q).  No program is imported: the dimension record is a variable,
  constrained only by its six lists.
-/
import Idealize.ShloMosaic.PureOps.Ideal.Laws
import Idealize.ShloMosaic.Lib.ValueIdx

noncomputable section

namespace Cert.LibMatmulPlain

open Idealize.ShloMosaic Idealize.ShloMosaic.ValueIdx

/-- Entry (p, q) of an M x K by K x N product into the zero accumulator is the sum over the contracted axis. -/
theorem matmul_zero_apply {M K N : ℕ} {φ₁ φ₂ : FTy}
    (D : DotDims ⟨2, ![M, K]⟩ ⟨2, ![K, N]⟩ ⟨2, ![M, N]⟩)
    (h1 : D.lhsContracting = [1]) (h2 : D.rhsContracting = [0])
    (h3 : D.lhsNonContracting = [0]) (h4 : D.rhsNonContracting = [1])
    (h5 : D.lhsBatch = []) (h6 : D.rhsBatch = [])
    (l : FVec Ideal ⟨2, ![M, K]⟩ φ₁) (r : FVec Ideal ⟨2, ![K, N]⟩ φ₂) (p : Fin M) (q : Fin N) :
    matmul D none l r (constant (F := Ideal) ⟨2, ![M, N]⟩ .f32 0x00000000#32) (ix2 p q)
      = ∑ k : Fin K, l (ix2 p k) * r (ix2 k q) := by
  obtain ⟨lc, rc, ln, rn, lb, rb, wf⟩ := D
  dsimp only at h1 h2 h3 h4 h5 h6
  subst h1 h2 h3 h4 h5 h6
  refine (Ideal.matmul_constant_zero_apply _ none l r (ix2 p q)).trans ?_
  rw [← Equiv.sum_comp (contrEquiv1 _ K rfl rfl).symm]
  refine Finset.sum_congr rfl fun k _ => ?_
  have hk := contrEquiv1_symm_val (DotDims.mk (sl := ⟨2, ![M, K]⟩) (sr := ⟨2, ![K, N]⟩) (so := ⟨2, ![M, N]⟩) [1] [0] [0] [1] [] [] wf) K rfl rfl k
  have el : (DotDims.mk (sl := ⟨2, ![M, K]⟩) (sr := ⟨2, ![K, N]⟩) (so := ⟨2, ![M, N]⟩) [1] [0] [0] [1] [] [] wf).lhsIdx (ix2 p q)
      ((contrEquiv1 _ K rfl rfl).symm k) = ix2 p k := funext fun a => Fin.ext (by
    match a with
    | ⟨0, _⟩ =>
      unfold DotDims.lhsIdx
      rw [dif_neg (show ¬ (⟨0, by decide⟩ : Fin 2) ∈ ([] : List (Fin 2)) from List.not_mem_nil),
        dif_pos (show (⟨0, by decide⟩ : Fin 2) ∈ ([0] : List (Fin 2)) from List.mem_singleton.2 rfl)]
      rfl
    | ⟨1, _⟩ => exact (DotDims.lhsIdx_val_of_single _ rfl _ _).trans hk)
  have er : (DotDims.mk (sl := ⟨2, ![M, K]⟩) (sr := ⟨2, ![K, N]⟩) (so := ⟨2, ![M, N]⟩) [1] [0] [0] [1] [] [] wf).rhsIdx (ix2 p q)
      ((contrEquiv1 _ K rfl rfl).symm k) = ix2 k q := funext fun a => Fin.ext (by
    match a with
    | ⟨0, _⟩ => exact (DotDims.rhsIdx_val_of_single _ rfl _ _).trans hk
    | ⟨1, _⟩ =>
      unfold DotDims.rhsIdx
      rw [dif_neg (show ¬ (⟨1, by decide⟩ : Fin 2) ∈ ([] : List (Fin 2)) from List.not_mem_nil),
        dif_pos (show (⟨1, by decide⟩ : Fin 2) ∈ ([1] : List (Fin 2)) from List.mem_singleton.2 rfl)]
      rfl)
  rw [el, er]

end Cert.LibMatmulPlain

end
-- ==== Proof.LibColumn.lean ====
/-
  Two layout facts about a COLUMN of width one, for any lengths: a vector of length `a` recast as an `[a, 1]` column
  reads, at `(i, u)`, the vector at `i`; and an `[a, 1]` column broadcast along a second axis of length `b` reads,
  at `(i, j)`, the column at `(i, 0)`. Both are the library's read-at-an-index lemmas with the coordinate arithmetic
  discharged. No program is imported.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to an `[a, 1]` column reads, at `(i, u)`, the operand at `i`: both sit at row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column at `(i, 0)`: the unit axis is read at
    zero, the other at the same coordinate. -/
theorem broadcastTo_a1_ab_apply {a b : ℕ} (x : (⟨2, ![a, 1]⟩ : Shape).Idx → α)
    (h : (⟨2, ![a, 1]⟩ : Shape).Broadcasts ⟨2, ![a, b]⟩) (i : Fin a) (j : Fin b) :
    broadcastTo ⟨2, ![a, b]⟩ x h (ix2 i j) = x (ix2 i (0 : Fin 1)) :=
  broadcastTo_apply x h (ix2 i j) (ix2 i (0 : Fin 1)) fun ax => by
    match ax with
    | ⟨0, _⟩ =>
      show i.val = if a = 1 then 0 else i.val
      by_cases ha : a = 1
      · rw [if_pos ha]; have := i.isLt; omega
      · rw [if_neg ha]
    | ⟨1, _⟩ => show 0 = if (1 : Nat) = 1 then 0 else j.val; rw [if_pos rfl]

end Cert.LibColumn
-- ==== Proof.Region0.lean ====
/-
  Region 0 (normalise and project), whatever the buffers hold when it is entered: its output array ends holding
  `Spec.stage1 Spec.denK` of its three input arrays.

  First the body's arithmetic at one entry of the block it stores (`pay_apply`): the leading unit axis dropped and put
  back, the lane sum read as a sum over the row, the two broadcasts read at their source entries, the matrix product
  into the zero accumulator read as the sum over the contracted axis; the two roundings to the narrower format are the
  identity on the extended reals. Then the same entry when the three blocks are the rows of one batch of an array, a
  whole vector and a whole matrix (`pay_eq_spec`): the specification's first stage at the corresponding entry of the
  array. Then the blocks a grid point reads (`iblk_x`, `iblk_w`, `iblk_m`), what it writes back (`flushed_eq`), the
  blocks' cover of the output array (`mem_blk`, `cover`), and the array (`array`).
-/
import proofs.«180778_j58944131170446_1_alg».proof.Proof.Gen.KernelIdeal.Frame
import proofs.«180778_j58944131170446_1_alg».proof.Proof.Spec
import proofs.«180778_j58944131170446_1_alg».proof.Proof.LibMatmulPlain
import proofs.«180778_j58944131170446_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.ShloMosaic.ValueIdx Idealize.SL.Sem
open Idealize.ShloMosaic.Pipeline (Dat Cfg Window)
open Cert.KernelIdeal Cert.KernelIdeal.Gen
open scoped BigOperators

namespace Cert.KernelIdeal.Region0

/-! ## The body's arithmetic at one entry of its block -/

/-- The sum over the lanes of a `[512, 1024]` block, at row `r`, is the sum of the row's entries. -/
theorem rowsum_apply (v : FVec Ideal S512x1024 .f32) (h : S512x1024.Reduces [1] S512) (hφ : FKind.Formats .f32)
    (hacc : (0x00000000#32 : BitVec 32) = FKind.add.neutral .f32 hφ) (r : Fin 512) :
    multiReduction .add [1] S512 v 0x00000000#32 h hφ hacc (ix1 r) = ∑ k : Fin 1024, v (ix2 r k) := by
  refine (Ideal.multiReduction_add_single v _ h hφ hacc (ix1 r)).trans ?_
  refine Finset.sum_congr rfl fun k _ => ?_
  exact congrArg v (funext fun a => Fin.ext (by match a with | ⟨0, _⟩ => rfl | ⟨1, _⟩ => rfl))

/-- Entry `(0, r, e)` of what the body stores: the row `r` of its first block, scaled entry by entry by the
    weight vector and divided by the root of the row's mean square plus ε, contracted with column `e` of the matrix. -/
theorem pay_apply (x0 : Vec Ideal S1x512x1024 .f32) (x1 : Vec Ideal S1024 .f32) (x2 : Vec Ideal S1024x3072 .bf16)
    (r : Fin 512) (e : Fin 3072) :
    k0_pay1 (F := Ideal) x0 x1 x2 (ix3 (0 : Fin 1) r e)
      = ∑ d : Fin 1024, Ideal.div (x1 (ix1 d) * x0 (ix3 (0 : Fin 1) r d))
          (Ideal.sqrt (Ideal.div (∑ k : Fin 1024, x0 (ix3 (0 : Fin 1) r k) * x0 (ix3 (0 : Fin 1) r k)) Cert.Spec.n1024) + Cert.Spec.eps)
          * x2 (ix2 d e) := by
  unfold k0_pay1
  refine (shapeCast_ab_1ab_apply _ _ (0 : Fin 1) r e).trans ?_
  refine (Cert.LibMatmulPlain.matmul_zero_apply dot_S512x1024_S1024x3072_S512x3072_1_0_0_1_n_n rfl rfl rfl rfl rfl rfl _ _ r e).trans ?_
  refine Finset.sum_congr rfl fun d _ => ?_
  refine congrArg₂ (· * ·) ?_ (congrFun (shapeCast_self x2 _) (ix2 d e))
  show Ideal.div ((mulf _ _ : FVec Ideal S512x1024 .f32) (ix2 r d)) ((broadcastTo S512x1024 _ _ : FVec Ideal S512x1024 .f32) (ix2 r d)) = _
  refine congrArg₂ Ideal.div ?_ ?_
  · show (broadcastTo S512x1024 _ _ : FVec Ideal S512x1024 .f32) (ix2 r d) * (shapeCast S512x1024 x0 _ : FVec Ideal S512x1024 .f32) (ix2 r d) = _
    refine congrArg₂ (· * ·) ?_ (shapeCast_1ab_ab_apply x0 _ r d)
    exact (broadcastTo_1b_ab_apply _ _ r d).trans (shapeCast_a_1a_apply x1 _ (0 : Fin 1) d)
  · refine (Cert.LibColumn.broadcastTo_a1_ab_apply _ _ r d).trans ?_
    show Ideal.sqrt (Ideal.div ((shapeCast S512x1 _ _ : FVec Ideal S512x1 .f32) (ix2 r (0 : Fin 1))) Cert.Spec.n1024) + Cert.Spec.eps = _
    refine congrArg (fun s => Ideal.sqrt (Ideal.div s Cert.Spec.n1024) + Cert.Spec.eps) ?_
    refine (Cert.LibColumn.shapeCast_a_a1_apply _ _ r (0 : Fin 1)).trans ?_
    refine (rowsum_apply _ _ _ _ r).trans ?_
    refine Finset.sum_congr rfl fun k _ => ?_
    show (shapeCast S512x1024 x0 _ : FVec Ideal S512x1024 .f32) (ix2 r k) * (shapeCast S512x1024 x0 _ : FVec Ideal S512x1024 .f32) (ix2 r k) = _
    rw [shapeCast_1ab_ab_apply x0 _ r k]

/-! ## The specification at the entries one grid point covers -/

/-- What the body stores, entry by entry, when its three blocks are: rows `s·512 …` of batch `b` of an array `X`,
    the whole vector `W`, the whole matrix `M` — the specification's first stage at the corresponding entry. -/
theorem pay_eq_spec (X : Cert.Spec.SX.Idx → EReal) (W : Cert.Spec.SV.Idx → EReal) (M : Cert.Spec.SWqT.Idx → EReal)
    (x0 : Vec Ideal S1x512x1024 .f32) (x1 : Vec Ideal S1024 .f32) (x2 : Vec Ideal S1024x3072 .bf16)
    (b s : Nat) (hb : b < 4) (hs : s < 8)
    (h0 : ∀ (r : Fin 512) (d : Fin 1024), x0 (ix3 (0 : Fin 1) r d) = X (ix3 (⟨b, hb⟩ : Fin 4) (⟨s * 512 + r.val, by omega⟩ : Fin 4096) d))
    (h1 : ∀ d : Fin 1024, x1 (ix1 d) = W (ix1 d))
    (h2 : ∀ (d : Fin 1024) (e : Fin 3072), x2 (ix2 d e) = M (ix2 d e))
    (y : S1x512x3072.Idx) :
    k0_pay1 (F := Ideal) x0 x1 x2 y
      = Cert.Spec.stage1 Cert.Spec.denK X W M
          (ix3 (⟨b, hb⟩ : Fin 4) (⟨s * 512 + (y 1).val, by have h1 : (y 1).val < 512 := (y 1).isLt; omega⟩ : Fin 4096) (⟨(y 2).val, (y 2).isLt⟩ : Fin 3072)) := by
  obtain ⟨u, r, e, rfl⟩ : ∃ (u : Fin 1) (r : Fin 512) (e : Fin 3072), y = ix3 u r e := ⟨y 0, y 1, y 2, eq_ix3 y⟩
  obtain rfl : u = 0 := Subsingleton.elim _ _
  rw [pay_apply]
  show _ = ∑ d : Fin 1024, Ideal.div (W (ix1 d) * X (ix3 (⟨b, hb⟩ : Fin 4) (⟨s * 512 + r.val, _⟩ : Fin 4096) d))
      (Ideal.sqrt (Ideal.div (∑ k : Fin 1024, X (ix3 (⟨b, hb⟩ : Fin 4) (⟨s * 512 + r.val, _⟩ : Fin 4096) k) * X (ix3 (⟨b, hb⟩ : Fin 4) (⟨s * 512 + r.val, _⟩ : Fin 4096) k)) Cert.Spec.n1024) + Cert.Spec.eps)
      * M (ix2 d e)
  simp only [h0, h1, h2]

/-! ## From blocks to the array -/

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the grid: the first input's block moves with the output's on the batch and
    row-block axes, every other block index is zero, and the output's block indices stay in their ranges. -/
theorem idx_facts : ∀ t : Fin cfg0.N,
    win0_0.index t (0 : Fin 3) = win0_3.index t (0 : Fin 3)
    ∧ win0_0.index t (1 : Fin 3) = win0_3.index t (1 : Fin 3)
    ∧ win0_0.index t (2 : Fin 3) = 0
    ∧ win0_3.index t (2 : Fin 3) = 0
    ∧ win0_1.index t (0 : Fin 1) = 0
    ∧ win0_2.index t (0 : Fin 2) = 0
    ∧ win0_2.index t (1 : Fin 2) = 0
    ∧ win0_3.index t (0 : Fin 3) < 4
    ∧ win0_3.index t (1 : Fin 3) < 8 :=
  (by decide +kernel : ∀ t : Fin grid0.N, _)

/-- Every block of the output array is some point's. -/
theorem idx_onto : ∀ (q0 : Fin 4) (q1 : Fin 8), ∃ t : Fin cfg0.N, win0_3.index t = ![q0.val, q1.val, 0] :=
  (by decide +kernel : ∀ (q0 : Fin 4) (q1 : Fin 8), ∃ t : Fin grid0.N, win0_3.index t = ![q0.val, q1.val, 0])

section Blocks

variable (V : (c : Dev nD) → (b : Ref sig .tc) → Buf (Elt Ideal) ((c : Thread nD τ).loc b))

/-- The first input's block at a point: 512 rows of one batch of the array, those the output's block covers. -/
theorem iblk_x (c : Dev nD) (t : Fin cfg0.N) (hb : win0_3.index t (0 : Fin 3) < 4) (hs : win0_3.index t (1 : Fin 3) < 8)
    (r : Fin 512) (d : Fin 1024) :
    (iblk0 (F := Ideal) V c 0 t : Vec Ideal S1x512x1024 .f32) (ix3 (0 : Fin 1) r d)
      = (V c main_arg0 : Cert.Spec.SX.Idx → EReal)
          (ix3 (⟨win0_3.index t (0 : Fin 3), hb⟩ : Fin 4) (⟨win0_3.index t (1 : Fin 3) * 512 + r.val, by omega⟩ : Fin 4096) d) := by
  obtain ⟨e0, e1, e2, -⟩ := idx_facts t
  unfold iblk0
  rw [View.read_apply]
  show (V c main_arg0 : Cert.Spec.SX.Idx → EReal) (((cfg0.win 0).blk t).view.emb (ix3 (0 : Fin 1) r d)) = _
  refine congrArg (V c main_arg0 : Cert.Spec.SX.Idx → EReal) ?_
  funext a; apply Fin.ext
  match a with
  | ⟨0, _⟩ => show win0_0.index t (0 : Fin 3) * 1 + 1 * 0 = win0_3.index t (0 : Fin 3); omega
  | ⟨1, _⟩ => show win0_0.index t (1 : Fin 3) * 512 + 1 * r.val = win0_3.index t (1 : Fin 3) * 512 + r.val; omega
  | ⟨2, _⟩ => show win0_0.index t (2 : Fin 3) * 1024 + 1 * d.val = d.val; omega

/-- The second input's block at a point is the whole vector. -/
theorem iblk_w (c : Dev nD) (t : Fin cfg0.N) (d : Fin 1024) :
    (iblk0 (F := Ideal) V c 1 t : Vec Ideal S1024 .f32) (ix1 d) = (V c main_arg1 : Cert.Spec.SV.Idx → EReal) (ix1 d) := by
  obtain ⟨-, -, -, -, e4, -⟩ := idx_facts t
  unfold iblk0
  rw [View.read_apply]
  show (V c main_arg1 : Cert.Spec.SV.Idx → EReal) (((cfg0.win 1).blk t).view.emb (ix1 d)) = _
  refine congrArg (V c main_arg1 : Cert.Spec.SV.Idx → EReal) ?_
  funext a; apply Fin.ext
  match a with
  | ⟨0, _⟩ => show win0_1.index t (0 : Fin 1) * 1024 + 1 * d.val = d.val; omega

/-- The third input's block at a point is the whole matrix. -/
theorem iblk_m (c : Dev nD) (t : Fin cfg0.N) (d : Fin 1024) (e : Fin 3072) :
    (iblk0 (F := Ideal) V c 2 t : Vec Ideal S1024x3072 .bf16) (ix2 d e) = (V c main_v1 : Cert.Spec.SWqT.Idx → EReal) (ix2 d e) := by
  obtain ⟨-, -, -, -, -, e5, e6, -⟩ := idx_facts t
  unfold iblk0
  rw [View.read_apply]
  show (V c main_v1 : Cert.Spec.SWqT.Idx → EReal) (((cfg0.win 2).blk t).view.emb (ix2 d e)) = _
  refine congrArg (V c main_v1 : Cert.Spec.SWqT.Idx → EReal) ?_
  funext a; apply Fin.ext
  match a with
  | ⟨0, _⟩ => show win0_2.index t (0 : Fin 2) * 1024 + 1 * d.val = d.val; omega
  | ⟨1, _⟩ => show win0_2.index t (1 : Fin 2) * 3072 + 1 * e.val = e.val; omega

/-- What a point writes back is its block of the specification's first stage of the arrays the region found. -/
theorem flushed_eq (c : Dev nD) (t : Fin cfg0.N) :
    (dat0 (F := Ideal) V c).flushed 3 t
      = ((cfg0.win 3).blk t).view.read (Elt Ideal)
          (Cert.Spec.stage1 Cert.Spec.denK (V c main_arg0) (V c main_arg1) (V c main_v1)) := by
  show (cfg0.win 3).cut (grid0.coords t) ((dat0 (F := Ideal) V c).after 3 t) = _
  rw [after0_3]
  unfold out0_3
  rw [View.canon_unit_zero hz3]
  simp only [View.ld_unit_zero (S := S1x512x1024) hz3, View.ld_unit_zero (S := S1024) hz1, View.ld_unit_zero (S := S1024x3072) hz2]
  obtain ⟨-, -, -, e3, -, -, -, hb, hs⟩ := idx_facts t
  funext j
  refine (pay_eq_spec (V c main_arg0) (V c main_arg1) (V c main_v1) _ _ _ _ _ hb hs
    (iblk_x V c t hb hs) (iblk_w V c t) (iblk_m V c t) ((cfg0.win 3).xinj (grid0.coords t) j)).trans ?_
  rw [View.read_apply]
  show Cert.Spec.stage1 Cert.Spec.denK (V c main_arg0) (V c main_arg1) (V c main_v1) _
    = Cert.Spec.stage1 Cert.Spec.denK (V c main_arg0) (V c main_arg1) (V c main_v1) (((cfg0.win 3).blk t).view.emb j)
  refine congrArg (Cert.Spec.stage1 Cert.Spec.denK (V c main_arg0) (V c main_arg1) (V c main_v1)) ?_
  funext a; apply Fin.ext
  match a with
  | ⟨0, _⟩ =>
    show win0_3.index t (0 : Fin 3) = win0_3.index t (0 : Fin 3) * 1 + 1 * (j 0).val
    have h0 : (j 0).val < 1 := (j 0).isLt
    omega
  | ⟨1, _⟩ => show win0_3.index t (1 : Fin 3) * 512 + (j 1).val = win0_3.index t (1 : Fin 3) * 512 + 1 * (j 1).val; omega
  | ⟨2, _⟩ => show (j 2).val = win0_3.index t (2 : Fin 3) * 3072 + 1 * (j 2).val; omega

/-- An index of the output array is in a point's block iff each coordinate is in the block's range on its axis. -/
theorem mem_blk (t : Fin cfg0.N) (i : S4x4096x3072.Idx) :
    i ∈ ((cfg0.win 3).blk t).view.set
      ↔ ∀ a : Fin 3, win0_3.index t a * S1x512x3072.size a ≤ (i a).val ∧ (i a).val < win0_3.index t a * S1x512x3072.size a + S1x512x3072.size a := by
  show i ∈ ((View.whole main_v4).slice (win0_3.rect t)).set ↔ _
  rw [View.set_slice_whole, Rect.mem_set_unit]
  exact Iff.rfl

/-- Every entry of the output array is in some point's block: entry `(b, r, e)` in the block of batch `b`, row block `r / 512`. -/
theorem cover (i : S4x4096x3072.Idx) : ∃ t : Fin cfg0.N, (cfg0.win 3).flush t = true ∧ i ∈ ((cfg0.win 3).blk t).view.set := by
  have hi0 : (i 0).val < 4 := (i 0).isLt
  have hi1 : (i 1).val < 4096 := (i 1).isLt
  have hi2 : (i 2).val < 3072 := (i 2).isLt
  obtain ⟨t, ht⟩ := idx_onto ⟨(i 0).val, hi0⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 3072 ≤ (i 2).val ∧ (i 2).val < win0_3.index t (2 : Fin 3) * 3072 + 3072; omega

end Blocks

/-- The array the first region writes, as one function of the arrays it reads. -/
theorem array (V : (c : Dev nD) → (b : Ref sig .tc) → Buf (Elt Ideal) ((c : Thread nD τ).loc b)) (c : Dev nD) :
    (dat0 (F := Ideal) V c).arrAt 3 cfg0.N
      = Cert.Spec.stage1 Cert.Spec.denK (V c main_arg0) (V c main_arg1) (V c main_v1) :=
  (dat0 (F := Ideal) V c).arrAt_eq_of_cover 3 _ (fun t _ => flushed_eq V c t) cover

end Cert.KernelIdeal.Region0

end
-- ==== Proof.Region1.lean ====
/-
  Region 1 (linear attention per batch and head), whatever the buffers hold when it is entered: its output array ends
  holding `Spec.stage2` of its three input arrays (queries, keys, values).

  Every grid point (b, h) reads the whole [4096, 64] slice of each input at batch `b` and head `h` and writes the whole
  slice of the output. On one slice the body scales the keys by 1/8, takes per column the maximum along the sequence,
  exponentiates the differences, divides by the column sums (a softmax along the sequence), contracts the normalised
  keys with the values along the sequence into a [64, 64] context matrix, and multiplies the queries by it. On the
  extended reals the format changes are identities, so this is the specification's stage 2 on that slice; the slices
  of the 64 points tile the array.
-/
import proofs.«180778_j58944131170446_1_alg».proof.Proof.Gen.KernelIdeal.Frame
import proofs.«180778_j58944131170446_1_alg».proof.Proof.Spec
import proofs.«180778_j58944131170446_1_alg».proof.Proof.LibMatmulPlain
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.ShloMosaic.ValueIdx Idealize.SL.Sem
open Idealize.ShloMosaic.Pipeline (Dat Cfg Window)
open Cert.KernelIdeal Cert.KernelIdeal.Gen
open scoped BigOperators

namespace Cert.KernelIdeal.Region1

/-! ## Layout operations of the body, read at an index -/

section Layout
variable {α : Type}

/-- A [1, 1, 4096, 64] block viewed as a [4096, 64] matrix reads, at (t, d), the block at (0, 0, t, d): the two
    indices have the same row-major position. -/
theorem cast_drop (x : S1x1x4096x64.Idx → α) (h : S1x1x4096x64.ShapeCasts S4096x64) (t : Fin 4096) (d : Fin 64) :
    shapeCast S4096x64 x h (ix2 t d) = x (ix4 (0 : Fin 1) (0 : Fin 1) t d) :=
  shapeCast_apply x h _ _ (by
    rw [Shape.rowMajor_val_four, Shape.rowMajor_val_two]
    show ((0 * 1 + 0) * 4096 + t.val) * 64 + d.val = t.val * 64 + d.val
    omega)

/-- A [4096, 64] matrix viewed as a [1, 1, 4096, 64] block reads, at (u, v, t, e), the matrix at (t, e), whatever the
    two unit coordinates. -/
theorem cast_add (y : S4096x64.Idx → α) (h : S4096x64.ShapeCasts S1x1x4096x64) (u v : Fin 1) (t : Fin 4096) (e : Fin 64) :
    shapeCast S1x1x4096x64 y h (ix4 u v t e) = y (ix2 t e) :=
  shapeCast_apply y h _ _ (by
    have hu : u.val = 0 := by omega
    have hv : v.val = 0 := by omega
    rw [Shape.rowMajor_val_four, Shape.rowMajor_val_two]
    show t.val * 64 + e.val = ((u.val * 1 + v.val) * 4096 + t.val) * 64 + e.val
    omega)

end Layout

/-! ## The two reductions along the sequence -/

/-- The maximum of a [4096, 64] matrix along its first axis, at column `d`: the fold of `max` from −∞ over the column's
    4096 entries. -/
theorem max_col (y : FVec Ideal S4096x64 .f32) (h : S4096x64.Reduces [0] S64) (hφ : FKind.Formats .f32)
    (hacc : (0xFF800000#32 : BitVec 32) = FKind.maximumf.neutral .f32 hφ) (d : Fin 64) :
    multiReduction .maximumf [0] S64 y 0xFF800000#32 h hφ hacc (ix1 d)
      = (Finset.univ : Finset (Fin 4096)).fold max (Ideal.ofBits .f32 0xFF800000#32) (fun t => y (ix2 t d)) := by
  refine (Ideal.multiReduction_maximumf_single y _ h hφ hacc (ix1 d)).trans ?_
  refine congrArg (fun f => (Finset.univ : Finset (Fin 4096)).fold max (Ideal.ofBits .f32 0xFF800000#32) f) ?_
  funext t
  exact congrArg y (funext fun a => Fin.ext (by match a with | ⟨0, _⟩ => rfl | ⟨1, _⟩ => rfl))

/-- The sum of a [4096, 64] matrix along its first axis, at column `d`: the sum of the column's 4096 entries. -/
theorem sum_col (y : FVec Ideal S4096x64 .f32) (h : S4096x64.Reduces [0] S64) (hφ : FKind.Formats .f32)
    (hacc : (0x00000000#32 : BitVec 32) = FKind.add.neutral .f32 hφ) (d : Fin 64) :
    multiReduction .add [0] S64 y 0x00000000#32 h hφ hacc (ix1 d) = ∑ t : Fin 4096, y (ix2 t d) := by
  refine (Ideal.multiReduction_add_single y _ h hφ hacc (ix1 d)).trans ?_
  refine Finset.sum_congr rfl fun t _ => ?_
  exact congrArg y (funext fun a => Fin.ext (by match a with | ⟨0, _⟩ => rfl | ⟨1, _⟩ => rfl))

/-! ## The product that contracts the sequence axis of both operands -/

/-- In the product that contracts axis 0 of both operands, the left operand's index has, on its kept axis, the
    output's row coordinate … -/
theorem lhs_seq_1 (i : S64x64.Idx) (q : dot_S4096x64_S4096x64_S64x64_0_0_1_1_n_n.contr.Idx) :
    (dot_S4096x64_S4096x64_S64x64_0_0_1_1_n_n.lhsIdx i q 1).val = (i 0).val := by
  unfold DotDims.lhsIdx
  rw [dif_neg (show ¬(1 : Fin S4096x64.rank) ∈ dot_S4096x64_S4096x64_S64x64_0_0_1_1_n_n.lhsBatch by decide),
    dif_pos (show (1 : Fin S4096x64.rank) ∈ dot_S4096x64_S4096x64_S64x64_0_0_1_1_n_n.lhsNonContracting by decide)]
  rfl

/-- … and the right operand's index has, on its kept axis, the output's column coordinate. -/
theorem rhs_seq_1 (i : S64x64.Idx) (q : dot_S4096x64_S4096x64_S64x64_0_0_1_1_n_n.contr.Idx) :
    (dot_S4096x64_S4096x64_S64x64_0_0_1_1_n_n.rhsIdx i q 1).val = (i 1).val := by
  unfold DotDims.rhsIdx
  rw [dif_neg (show ¬(1 : Fin S4096x64.rank) ∈ dot_S4096x64_S4096x64_S64x64_0_0_1_1_n_n.rhsBatch by decide),
    dif_pos (show (1 : Fin S4096x64.rank) ∈ dot_S4096x64_S4096x64_S64x64_0_0_1_1_n_n.rhsNonContracting by decide)]
  rfl

/-- Entry (d, e) of the product of two [4096, 64] matrices contracted along their first axes, into the zero matrix, is
    `Σ_t l[t, d] · r[t, e]`: the contraction index is its one coordinate, and the two operand indices at it are (t, d)
    and (t, e). -/
theorem matmul_seq (l : FVec Ideal S4096x64 .bf16) (r : FVec Ideal S4096x64 .bf16) (d e : Fin 64) :
    matmul dot_S4096x64_S4096x64_S64x64_0_0_1_1_n_n none l r (constant (F := Ideal) S64x64 .f32 0x00000000#32) (ix2 d e)
      = ∑ t : Fin 4096, l (ix2 t d) * r (ix2 t e) := by
  refine (Ideal.matmul_constant_zero_apply dot_S4096x64_S4096x64_S64x64_0_0_1_1_n_n none l r (ix2 d e)).trans ?_
  rw [← Equiv.sum_comp (contrEquiv1 dot_S4096x64_S4096x64_S64x64_0_0_1_1_n_n 4096 rfl rfl).symm]
  refine Finset.sum_congr rfl fun k _ => ?_
  have hk := contrEquiv1_symm_val dot_S4096x64_S4096x64_S64x64_0_0_1_1_n_n 4096 rfl rfl k
  have el : dot_S4096x64_S4096x64_S64x64_0_0_1_1_n_n.lhsIdx (ix2 d e)
      ((contrEquiv1 dot_S4096x64_S4096x64_S64x64_0_0_1_1_n_n 4096 rfl rfl).symm k) = ix2 k d := funext fun a => Fin.ext (by
    match a with
    | ⟨0, _⟩ => exact (dot_S4096x64_S4096x64_S64x64_0_0_1_1_n_n.lhsIdx_val_of_single rfl _ _).trans hk
    | ⟨1, _⟩ => exact lhs_seq_1 _ _)
  have er : dot_S4096x64_S4096x64_S64x64_0_0_1_1_n_n.rhsIdx (ix2 d e)
      ((contrEquiv1 dot_S4096x64_S4096x64_S64x64_0_0_1_1_n_n 4096 rfl rfl).symm k) = ix2 k e := funext fun a => Fin.ext (by
    match a with
    | ⟨0, _⟩ => exact (dot_S4096x64_S4096x64_S64x64_0_0_1_1_n_n.rhsIdx_val_of_single rfl _ _).trans hk
    | ⟨1, _⟩ => exact rhs_seq_1 _ _)
  rw [el, er]

/-! ## The body's value, stage by stage

The body's one stored value is a composition of seven stages. Each is named here as a function of the blocks it reads
(keys `xk`, values `xv`, queries `xq`, each of shape [1, 1, 4096, 64]) and read at an index. -/

/-- The keys of the block, scaled by 1/8. -/
def kS (xk : Vec Ideal S1x1x4096x64 .bf16) : FVec Ideal S4096x64 .f32 :=
  mulf (extf .f32 (shapeCast S4096x64 xk shapeCasts_S1x1x4096x64_S4096x64 : FVec Ideal S4096x64 .bf16) bitsLt_bf16_f32)
    (broadcast S4096x64 (Scalar.ofBits .f32 0x3E000000#32 : Ideal .f32))

/-- Their maximum along the sequence, column by column, from −∞. -/
def kM (xk : Vec Ideal S1x1x4096x64 .bf16) : FVec Ideal S64 .f32 :=
  multiReduction .maximumf [0] S64 (kS xk) 0xFF800000#32 reduces_S4096x64_S64 (.inl rfl) rfl

/-- The exponential of each scaled key less its column's maximum. -/
def kE (xk : Vec Ideal S1x1x4096x64 .bf16) : FVec Ideal S4096x64 .f32 :=
  exp (subf (kS xk) (broadcastTo S4096x64 (shapeCast S1x64 (kM xk) shapeCasts_S64_S1x64) broadcasts_S1x64_S4096x64))

/-- The sum of those exponentials along the sequence, column by column. -/
def kZ (xk : Vec Ideal S1x1x4096x64 .bf16) : FVec Ideal S64 .f32 :=
  multiReduction .add [0] S64 (kE xk) 0x00000000#32 reduces_S4096x64_S64 (.inl rfl) rfl

/-- The keys after the softmax along the sequence. -/
def kN (xk : Vec Ideal S1x1x4096x64 .bf16) : FVec Ideal S4096x64 .bf16 :=
  truncf .bf16 (divf (kE xk) (broadcastTo S4096x64 (shapeCast S1x64 (kZ xk) shapeCasts_S64_S1x64) broadcasts_S1x64_S4096x64))
    bitsLt_bf16_f32

/-- The context matrix: normalised keys against values, contracted along the sequence. -/
def kC (xk xv : Vec Ideal S1x1x4096x64 .bf16) : FVec Ideal S64x64 .bf16 :=
  truncf .bf16 (matmul dot_S4096x64_S4096x64_S64x64_0_0_1_1_n_n none (kN xk)
    (shapeCast S4096x64 xv shapeCasts_S1x1x4096x64_S4096x64 : FVec Ideal S4096x64 .bf16) (constant S64x64 .f32 0x00000000#32)) bitsLt_bf16_f32

/-- The output block: queries against the context matrix. -/
def kO (xk xv xq : Vec Ideal S1x1x4096x64 .bf16) : FVec Ideal S1x1x4096x64 .bf16 :=
  shapeCast S1x1x4096x64 (truncf .bf16 (matmul dot_S4096x64_S64x64_S4096x64_1_0_0_1_n_n none
    (shapeCast S4096x64 xq shapeCasts_S1x1x4096x64_S4096x64 : FVec Ideal S4096x64 .bf16) (kC xk xv) (constant S4096x64 .f32 0x00000000#32)) bitsLt_bf16_f32)
    shapeCasts_S4096x64_S1x1x4096x64

/-- The body's stored value is the composition of the seven stages. -/
theorem pay_eq (xk xv xq : Vec Ideal S1x1x4096x64 .bf16) : k1_pay1 xk xv xq = kO xk xv xq := rfl

/-- A scaled key is the key times 1/8 (the widening to f32 is the identity on the extended reals). -/
theorem kS_apply (xk : Vec Ideal S1x1x4096x64 .bf16) (t : Fin 4096) (d : Fin 64) :
    kS xk (ix2 t d) = xk (ix4 (0 : Fin 1) (0 : Fin 1) t d) * Cert.Spec.r8 :=
  congrArg (· * Cert.Spec.r8) (cast_drop xk shapeCasts_S1x1x4096x64_S4096x64 t d)

/-- The column maximum is the fold of `max` from −∞ over the scaled keys of the column. -/
theorem kM_apply (xk : Vec Ideal S1x1x4096x64 .bf16) (d : Fin 64) :
    kM xk (ix1 d) = (Finset.univ : Finset (Fin 4096)).fold max Cert.Spec.ninf (fun t => kS xk (ix2 t d)) :=
  max_col (kS xk) reduces_S4096x64_S64 (.inl rfl) rfl d

/-- The row of maxima, broadcast over the sequence, reads column `d`'s maximum at every (t, d). -/
theorem kE_apply (xk : Vec Ideal S1x1x4096x64 .bf16) (t : Fin 4096) (d : Fin 64) :
    kE xk (ix2 t d) = Ideal.exp (kS xk (ix2 t d) - kM xk (ix1 d)) := by
  refine congrArg (fun z => Ideal.exp (kS xk (ix2 t d) - z)) ?_
  refine (broadcastTo_1b_ab_apply _ broadcasts_S1x64_S4096x64 t d).trans ?_
  exact shapeCast_a_1a_apply (kM xk) shapeCasts_S64_S1x64 (0 : Fin 1) d

/-- The normaliser of column `d` is the sum of the column's exponentials. -/
theorem kZ_apply (xk : Vec Ideal S1x1x4096x64 .bf16) (d : Fin 64) :
    kZ xk (ix1 d) = ∑ t : Fin 4096, kE xk (ix2 t d) :=
  sum_col (kE xk) reduces_S4096x64_S64 (.inl rfl) rfl d

/-- A normalised key is its exponential over its column's normaliser (the narrowing to bf16 is the identity on the
    extended reals). -/
theorem kN_apply (xk : Vec Ideal S1x1x4096x64 .bf16) (t : Fin 4096) (d : Fin 64) :
    kN xk (ix2 t d) = Ideal.div (kE xk (ix2 t d)) (kZ xk (ix1 d)) := by
  refine congrArg (fun z => Ideal.div (kE xk (ix2 t d)) z) ?_
  refine (broadcastTo_1b_ab_apply _ broadcasts_S1x64_S4096x64 t d).trans ?_
  exact shapeCast_a_1a_apply (kZ xk) shapeCasts_S64_S1x64 (0 : Fin 1) d

/-- The context matrix at (d, e) is `Σ_t knorm[t, d] · v[t, e]`. -/
theorem kC_apply (xk xv : Vec Ideal S1x1x4096x64 .bf16) (d e : Fin 64) :
    kC xk xv (ix2 d e) = ∑ t : Fin 4096, kN xk (ix2 t d) * xv (ix4 (0 : Fin 1) (0 : Fin 1) t e) := by
  refine (matmul_seq (kN xk) (shapeCast S4096x64 xv shapeCasts_S1x1x4096x64_S4096x64 : FVec Ideal S4096x64 .bf16) d e).trans ?_
  refine Finset.sum_congr rfl fun t _ => ?_
  exact congrArg (kN xk (ix2 t d) * ·) (cast_drop xv shapeCasts_S1x1x4096x64_S4096x64 t e)

/-- The output block at (0, 0, t, e) is `Σ_d q[t, d] · ctx[d, e]`. -/
theorem kO_apply (xk xv xq : Vec Ideal S1x1x4096x64 .bf16) (t : Fin 4096) (e : Fin 64) :
    kO xk xv xq (ix4 (0 : Fin 1) (0 : Fin 1) t e)
      = ∑ d : Fin 64, xq (ix4 (0 : Fin 1) (0 : Fin 1) t d) * kC xk xv (ix2 d e) := by
  refine (cast_add _ shapeCasts_S4096x64_S1x1x4096x64 (0 : Fin 1) (0 : Fin 1) t e).trans ?_
  refine (Cert.LibMatmulPlain.matmul_zero_apply dot_S4096x64_S64x64_S4096x64_1_0_0_1_n_n rfl rfl rfl rfl rfl rfl
    (shapeCast S4096x64 xq shapeCasts_S1x1x4096x64_S4096x64 : FVec Ideal S4096x64 .bf16) (kC xk xv) t e).trans ?_
  refine Finset.sum_congr rfl fun d _ => ?_
  exact congrArg (· * kC xk xv (ix2 d e)) (cast_drop xq shapeCasts_S1x1x4096x64_S4096x64 t d)

/-! ## The stages are the specification's, when the blocks are one (batch, head) slice of the arrays -/

section Slices
variable (Q K W : Cert.Spec.SH.Idx → EReal) (b : Fin 4) (h : Fin 16) (xk xv xq : Vec Ideal S1x1x4096x64 .bf16)

/-- Each stage of the body on the blocks is the specification's function of the arrays at batch `b` and head `h`, as soon
    as the blocks' entries are the arrays' entries of that (batch, head) slice (`hk`, `hv`, `hq`): the scaled keys, -/
theorem kS_spec (hk : ∀ (t : Fin 4096) (d : Fin 64), xk (ix4 (0 : Fin 1) (0 : Fin 1) t d) = K (ix4 b h t d))
    (t : Fin 4096) (d : Fin 64) : kS xk (ix2 t d) = Cert.Spec.kscaled K b h t d :=
  (kS_apply xk t d).trans (congrArg (· * Cert.Spec.r8) (hk t d))

/-- their maximum along the sequence, -/
theorem kM_spec (hk : ∀ (t : Fin 4096) (d : Fin 64), xk (ix4 (0 : Fin 1) (0 : Fin 1) t d) = K (ix4 b h t d))
    (d : Fin 64) : kM xk (ix1 d) = Cert.Spec.kmax K b h d :=
  (kM_apply xk d).trans (congrArg (fun f => (Finset.univ : Finset (Fin 4096)).fold max Cert.Spec.ninf f)
    (funext fun t => kS_spec K b h xk hk t d))

/-- the exponentials, -/
theorem kE_spec (hk : ∀ (t : Fin 4096) (d : Fin 64), xk (ix4 (0 : Fin 1) (0 : Fin 1) t d) = K (ix4 b h t d))
    (t : Fin 4096) (d : Fin 64) : kE xk (ix2 t d) = Cert.Spec.kexp K b h t d := by
  rw [kE_apply, kS_spec K b h xk hk, kM_spec K b h xk hk]
  rfl

/-- the normaliser, -/
theorem kZ_spec (hk : ∀ (t : Fin 4096) (d : Fin 64), xk (ix4 (0 : Fin 1) (0 : Fin 1) t d) = K (ix4 b h t d))
    (d : Fin 64) : kZ xk (ix1 d) = ∑ t : Fin 4096, Cert.Spec.kexp K b h t d :=
  (kZ_apply xk d).trans (Finset.sum_congr rfl fun t _ => kE_spec K b h xk hk t d)

/-- the keys after the softmax along the sequence, -/
theorem kN_spec (hk : ∀ (t : Fin 4096) (d : Fin 64), xk (ix4 (0 : Fin 1) (0 : Fin 1) t d) = K (ix4 b h t d))
    (t : Fin 4096) (d : Fin 64) : kN xk (ix2 t d) = Cert.Spec.knorm K b h t d := by
  rw [kN_apply, kE_spec K b h xk hk, kZ_spec K b h xk hk]
  rfl

/-- the context matrix, -/
theorem kC_spec (hk : ∀ (t : Fin 4096) (d : Fin 64), xk (ix4 (0 : Fin 1) (0 : Fin 1) t d) = K (ix4 b h t d))
    (hv : ∀ (t : Fin 4096) (e : Fin 64), xv (ix4 (0 : Fin 1) (0 : Fin 1) t e) = W (ix4 b h t e))
    (d e : Fin 64) : kC xk xv (ix2 d e) = Cert.Spec.ctx K W b h d e :=
  (kC_apply xk xv d e).trans (Finset.sum_congr rfl fun t _ => by rw [kN_spec K b h xk hk, hv])

/-- and the output. -/
theorem kO_spec (hk : ∀ (t : Fin 4096) (d : Fin 64), xk (ix4 (0 : Fin 1) (0 : Fin 1) t d) = K (ix4 b h t d))
    (hv : ∀ (t : Fin 4096) (e : Fin 64), xv (ix4 (0 : Fin 1) (0 : Fin 1) t e) = W (ix4 b h t e))
    (hq : ∀ (t : Fin 4096) (d : Fin 64), xq (ix4 (0 : Fin 1) (0 : Fin 1) t d) = Q (ix4 b h t d))
    (t : Fin 4096) (e : Fin 64) :
    kO xk xv xq (ix4 (0 : Fin 1) (0 : Fin 1) t e) = Cert.Spec.stage2 Q K W (ix4 b h t e) := by
  show _ = ∑ d : Fin 64, Q (ix4 b h t d) * Cert.Spec.ctx K W b h d e
  exact (kO_apply xk xv xq t e).trans (Finset.sum_congr rfl fun d _ => by rw [hq, kC_spec K W b h xk xv hk hv])

end Slices

/-! ## From blocks to the array -/

/-- The body reads and writes its whole blocks: every offset is zero. -/
theorem hz : (![0, 0, 0, 0] : Fin 4 → Nat) = fun _ => 0 := funext fun a => by fin_cases a <;> rfl

/-- The block index maps over the grid: every window's block at a point is the whole (batch, head) slice the
    output's block is, and the output's block indices stay in their ranges. -/
theorem idx_facts : ∀ t : Fin cfg1.N,
    win1_3.index t (0 : Fin 4) < 4 ∧ win1_3.index t (1 : Fin 4) < 16
    ∧ win1_3.index t (2 : Fin 4) = 0 ∧ win1_3.index t (3 : Fin 4) = 0
    ∧ win1_0.index t (0 : Fin 4) = win1_3.index t (0 : Fin 4) ∧ win1_0.index t (1 : Fin 4) = win1_3.index t (1 : Fin 4)
    ∧ win1_0.index t (2 : Fin 4) = 0 ∧ win1_0.index t (3 : Fin 4) = 0
    ∧ win1_1.index t (0 : Fin 4) = win1_3.index t (0 : Fin 4) ∧ win1_1.index t (1 : Fin 4) = win1_3.index t (1 : Fin 4)
    ∧ win1_1.index t (2 : Fin 4) = 0 ∧ win1_1.index t (3 : Fin 4) = 0
    ∧ win1_2.index t (0 : Fin 4) = win1_3.index t (0 : Fin 4) ∧ win1_2.index t (1 : Fin 4) = win1_3.index t (1 : Fin 4)
    ∧ win1_2.index t (2 : Fin 4) = 0 ∧ win1_2.index t (3 : Fin 4) = 0 :=
  (by decide +kernel : ∀ t : Fin grid1.N, _)

/-- Every (batch, head) pair is SOME point's block. -/
theorem idx_onto : ∀ (q0 : Fin 4) (q1 : Fin 16), ∃ t : Fin cfg1.N, win1_3.index t = ![q0.val, q1.val, 0, 0] :=
  (by decide +kernel : ∀ (q0 : Fin 4) (q1 : Fin 16), ∃ t : Fin grid1.N, win1_3.index t = ![q0.val, q1.val, 0, 0])

section Array
variable (V : (c : Dev nD) → (b : Ref sig .tc) → Buf (Elt Ideal) ((c : Thread nD τ).loc b))

/-- WHAT POINT `t` WRITES BACK is block `t` of the specification's stage 2 of the three arrays as the region finds them. -/
theorem flushed_eq (c : Dev nD) (t : Fin cfg1.N) :
    (dat1 (F := Ideal) V c).flushed 3 t
      = ((cfg1.win 3).blk t).view.read (Elt Ideal) (Cert.Spec.stage2 (V c main_v9) (V c main_v11) (V c main_v13)) := by
  show (cfg1.win 3).cut (grid1.coords t) ((dat1 (F := Ideal) V c).after 3 t) = _
  rw [after1_3]
  unfold out1_3
  rw [View.canon_unit_zero hz]
  simp only [View.ld_unit_zero (S := S1x1x4096x64) hz]
  rw [pay_eq]
  obtain ⟨f0, f1, f2, f3, q0, q1, q2, q3, k0, k1, k2, k3, v0, v1, v2, v3⟩ := idx_facts t
  refine funext fun (j : S1x1x4096x64.Idx) => ?_
  obtain ⟨u, v, s, e, rfl⟩ : ∃ (u v : Fin 1) (s : Fin 4096) (e : Fin 64), j = ix4 u v s e :=
    ⟨j 0, j 1, j 2, j 3, eq_ix4 j⟩
  obtain rfl : u = 0 := Subsingleton.elim _ _
  obtain rfl : v = 0 := Subsingleton.elim _ _
  show kO (iblk1 V c 1 t) (iblk1 V c 2 t) (iblk1 V c 0 t) (ix4 (0 : Fin 1) (0 : Fin 1) s e)
    = Cert.Spec.stage2 (V c main_v9) (V c main_v11) (V c main_v13)
        (((cfg1.win 3).blk t).view.emb (ix4 (0 : Fin 1) (0 : Fin 1) s e))
  have hemb : ((cfg1.win 3).blk t).view.emb (ix4 (0 : Fin 1) (0 : Fin 1) s e)
      = (ix4 (⟨win1_3.index t (0 : Fin 4), f0⟩ : Fin 4) (⟨win1_3.index t (1 : Fin 4), f1⟩ : Fin 16) s e : S4x16x4096x64.Idx) := by
    funext a; apply Fin.ext
    match a with
    | ⟨0, _⟩ => show win1_3.index t (0 : Fin 4) * 1 + 1 * 0 = win1_3.index t (0 : Fin 4); omega
    | ⟨1, _⟩ => show win1_3.index t (1 : Fin 4) * 1 + 1 * 0 = win1_3.index t (1 : Fin 4); omega
    | ⟨2, _⟩ => show win1_3.index t (2 : Fin 4) * 4096 + 1 * s.val = s.val; omega
    | ⟨3, _⟩ => show win1_3.index t (3 : Fin 4) * 64 + 1 * e.val = e.val; omega
  refine (kO_spec (V c main_v9) (V c main_v11) (V c main_v13) ⟨win1_3.index t (0 : Fin 4), f0⟩ ⟨win1_3.index t (1 : Fin 4), f1⟩
    (iblk1 V c 1 t) (iblk1 V c 2 t) (iblk1 V c 0 t) ?_ ?_ ?_ s e).trans
    (congrArg (Cert.Spec.stage2 (V c main_v9) (V c main_v11) (V c main_v13)) hemb.symm)
  · intro t' d
    show V c main_v11 (((cfg1.win 1).blk t).view.emb (ix4 (0 : Fin 1) (0 : Fin 1) t' d)) = V c main_v11 _
    refine congrArg (V c main_v11) (funext fun a => Fin.ext ?_)
    match a with
    | ⟨0, _⟩ => show win1_1.index t (0 : Fin 4) * 1 + 1 * 0 = win1_3.index t (0 : Fin 4); omega
    | ⟨1, _⟩ => show win1_1.index t (1 : Fin 4) * 1 + 1 * 0 = win1_3.index t (1 : Fin 4); omega
    | ⟨2, _⟩ => show win1_1.index t (2 : Fin 4) * 4096 + 1 * t'.val = t'.val; omega
    | ⟨3, _⟩ => show win1_1.index t (3 : Fin 4) * 64 + 1 * d.val = d.val; omega
  · intro t' d
    show V c main_v13 (((cfg1.win 2).blk t).view.emb (ix4 (0 : Fin 1) (0 : Fin 1) t' d)) = V c main_v13 _
    refine congrArg (V c main_v13) (funext fun a => Fin.ext ?_)
    match a with
    | ⟨0, _⟩ => show win1_2.index t (0 : Fin 4) * 1 + 1 * 0 = win1_3.index t (0 : Fin 4); omega
    | ⟨1, _⟩ => show win1_2.index t (1 : Fin 4) * 1 + 1 * 0 = win1_3.index t (1 : Fin 4); omega
    | ⟨2, _⟩ => show win1_2.index t (2 : Fin 4) * 4096 + 1 * t'.val = t'.val; omega
    | ⟨3, _⟩ => show win1_2.index t (3 : Fin 4) * 64 + 1 * d.val = d.val; omega
  · intro t' d
    show V c main_v9 (((cfg1.win 0).blk t).view.emb (ix4 (0 : Fin 1) (0 : Fin 1) t' d)) = V c main_v9 _
    refine congrArg (V c main_v9) (funext fun a => Fin.ext ?_)
    match a with
    | ⟨0, _⟩ => show win1_0.index t (0 : Fin 4) * 1 + 1 * 0 = win1_3.index t (0 : Fin 4); omega
    | ⟨1, _⟩ => show win1_0.index t (1 : Fin 4) * 1 + 1 * 0 = win1_3.index t (1 : Fin 4); omega
    | ⟨2, _⟩ => show win1_0.index t (2 : Fin 4) * 4096 + 1 * t'.val = t'.val; omega
    | ⟨3, _⟩ => show win1_0.index t (3 : Fin 4) * 64 + 1 * d.val = d.val; omega

/-- An index of the array is in point `t`'s block iff each coordinate is in the block's range on its axis. -/
theorem mem_blk (t : Fin cfg1.N) (i : S4x16x4096x64.Idx) :
    i ∈ ((cfg1.win 3).blk t).view.set ↔ ∀ a : Fin 4, win1_3.index t a * S1x1x4096x64.size a ≤ (i a).val
      ∧ (i a).val < win1_3.index t a * S1x1x4096x64.size a + S1x1x4096x64.size a := by
  show i ∈ ((View.whole main_v14).slice (win1_3.rect t)).set ↔ _
  rw [View.set_slice_whole, Rect.mem_set_unit]
  exact Iff.rfl

/-- Every index of the array is in the block of the point of its (batch, head) pair. -/
theorem cover (i : S4x16x4096x64.Idx) :
    ∃ t : Fin cfg1.N, (cfg1.win 3).flush t = true ∧ i ∈ ((cfg1.win 3).blk t).view.set := by
  have hi0 : (i 0).val < 4 := (i 0).isLt
  have hi1 : (i 1).val < 16 := (i 1).isLt
  have hi2 : (i 2).val < 4096 := (i 2).isLt
  have hi3 : (i 3).val < 64 := (i 3).isLt
  obtain ⟨t, ht⟩ := idx_onto ⟨(i 0).val, hi0⟩ ⟨(i 1).val, hi1⟩
  have q0 : win1_3.index t (0 : Fin 4) = (i 0).val := congrFun ht 0
  have q1 : win1_3.index t (1 : Fin 4) = (i 1).val := congrFun ht 1
  have q2 : win1_3.index t (2 : Fin 4) = 0 := congrFun ht 2
  have q3 : win1_3.index t (3 : Fin 4) = 0 := congrFun ht 3
  refine ⟨t, flush1_3 t, ?_⟩
  rw [mem_blk]
  intro a
  match a with
  | ⟨0, _⟩ => show win1_3.index t (0 : Fin 4) * 1 ≤ (i 0).val ∧ (i 0).val < win1_3.index t (0 : Fin 4) * 1 + 1; omega
  | ⟨1, _⟩ => show win1_3.index t (1 : Fin 4) * 1 ≤ (i 1).val ∧ (i 1).val < win1_3.index t (1 : Fin 4) * 1 + 1; omega
  | ⟨2, _⟩ => show win1_3.index t (2 : Fin 4) * 4096 ≤ (i 2).val ∧ (i 2).val < win1_3.index t (2 : Fin 4) * 4096 + 4096; omega
  | ⟨3, _⟩ => show win1_3.index t (3 : Fin 4) * 64 ≤ (i 3).val ∧ (i 3).val < win1_3.index t (3 : Fin 4) * 64 + 64; omega

end Array

/-- The array the second region writes, as one function of the arrays it reads. -/
theorem array (V : (c : Dev nD) → (b : Ref sig .tc) → Buf (Elt Ideal) ((c : Thread nD τ).loc b)) (c : Dev nD) :
    (dat1 (F := Ideal) V c).arrAt 3 cfg1.N
      = Cert.Spec.stage2 (V c main_v9) (V c main_v11) (V c main_v13) :=
  (dat1 (F := Ideal) V c).arrAt_eq_of_cover 3 _ (fun t _ => flushed_eq V c t) cover

end Cert.KernelIdeal.Region1

end
-- ==== Proof.Region2.lean ====
/-
  Region 2 (output projection and residual), whatever the buffers hold when it is entered.

  The grid is 4 × 8: point `(b, s)` reads rows `512·s … 512·s + 511` of batch `b` of the attention output `a` and of `x`,
  the whole `[1024, 1024]` weight matrix `W`, and writes the same rows of the result: `x[b,t,e] + Σ_d a[b,t,d] · W[d,e]`.
  The blocks tile the `[4, 4096, 1024]` result, so the array ends holding `Spec.stage3` of the three input arrays.
-/
import proofs.«180778_j58944131170446_1_alg».proof.Proof.Gen.KernelIdeal.Frame
import proofs.«180778_j58944131170446_1_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«180778_j58944131170446_1_alg».proof.Proof.LibMatmulPlain

set_option maxRecDepth 16384

noncomputable section

open Idealize.ShloMosaic Idealize.ShloMosaic.TcCoe Idealize.ShloMosaic.ValueIdx Idealize.SL.Sem
open Idealize.ShloMosaic.Pipeline (Dat Cfg Window)
open Cert.KernelIdeal Cert.KernelIdeal.Gen
open scoped BigOperators

namespace Cert.KernelIdeal.Region2

/-- The body's result at row `r`, column `e` of its block: the residual entry plus the row of `a` against the
    column of `W`. -/
theorem pay (xa : Vec Ideal S1x512x1024 .bf16) (xw : Vec Ideal S1024x1024 .bf16) (xx : Vec Ideal S1x512x1024 .f32)
    (z : Fin 1) (r : Fin 512) (e : Fin 1024) :
    k2_pay1 xa xw xx (ix3 z r e) = xx (ix3 (0 : Fin 1) r e) + ∑ d : Fin 1024, xa (ix3 (0 : Fin 1) r d) * xw (ix2 d e) := by
  unfold k2_pay1
  refine (shapeCast_ab_1ab_apply _ _ z r e).trans ?_
  refine (addf_apply _ _ (ix2 r e)).trans ?_
  refine congrArg₂ (· + ·) (shapeCast_1ab_ab_apply xx _ r e) ?_
  refine (Cert.LibMatmulPlain.matmul_zero_apply dot_S512x1024_S1024x1024_S512x1024_1_0_0_1_n_n rfl rfl rfl rfl rfl rfl _ _ r e).trans ?_
  refine Finset.sum_congr rfl fun d _ => ?_
  refine congrArg₂ (· * ·) (shapeCast_1ab_ab_apply xa _ r d) ?_
  exact congrFun (shapeCast_self xw _) (ix2 d e)

/-- The third stage at an array index `I`, from the three arrays read where the blocks sit: `x` at `I`, row `(I 0, I 1)` of
    `a`, column `I 2` of `W`. -/
theorem at_index (A X : S4x4096x1024.Idx → EReal) (WT : S1024x1024.Idx → EReal) (I i1 : S4x4096x1024.Idx)
    (i0 : Fin 1024 → S4x4096x1024.Idx) (i2 : Fin 1024 → S1024x1024.Idx)
    (h1 : i1 = I) (h0 : ∀ d, i0 d = ix3 (I 0) (I 1) d) (h2 : ∀ d, i2 d = ix2 d (I 2)) :
    X i1 + ∑ d : Fin 1024, A (i0 d) * WT (i2 d) = Cert.Spec.stage3 A X WT I := by
  subst h1
  unfold Cert.Spec.stage3
  refine congrArg₂ (· + ·) rfl (Finset.sum_congr rfl fun d _ => ?_)
  rw [h0 d, h2 d]
  rfl

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the 32 grid points: the two row-blocked inputs move with the output, the
    weight matrix stays, and the output's block indices are `(b, s, 0)`. -/
theorem idx_facts : ∀ t : Fin cfg2.N,
    win2_0.index t (0 : Fin 3) = win2_3.index t (0 : Fin 3) ∧ win2_0.index t (1 : Fin 3) = win2_3.index t (1 : Fin 3)
    ∧ win2_0.index t (2 : Fin 3) = 0
    ∧ win2_1.index t (0 : Fin 3) = win2_3.index t (0 : Fin 3) ∧ win2_1.index t (1 : Fin 3) = win2_3.index t (1 : Fin 3)
    ∧ win2_1.index t (2 : Fin 3) = 0
    ∧ win2_2.index t (0 : Fin 2) = 0 ∧ win2_2.index t (1 : Fin 2) = 0
    ∧ win2_3.index t (2 : Fin 3) = 0 :=
  (by decide +kernel : ∀ t : Fin grid2.N, _)

/-- Every block `(b, s, 0)` is some point's. -/
theorem idx_onto : ∀ (q0 : Fin 4) (q1 : Fin 8), ∃ t : Fin cfg2.N, win2_3.index t = ![q0.val, q1.val, 0] :=
  (by decide +kernel : ∀ (q0 : Fin 4) (q1 : Fin 8), ∃ t : Fin grid2.N, win2_3.index t = ![q0.val, q1.val, 0])

/-- What point `t` writes back is block `t` of the specification's third stage. -/
theorem flushed_eq (V : (c : Dev nD) → (b : Ref sig .tc) → Buf (Elt Ideal) ((c : Thread nD τ).loc b)) (c : Dev nD)
    (t : Fin cfg2.N) :
    (dat2 (F := Ideal) V c).flushed 3 t
      = ((cfg2.win 3).blk t).view.read (Elt Ideal) (Cert.Spec.stage3 (V c main_v16) (V c main_arg0) (V c main_v3)) := by
  show (cfg2.win 3).cut (grid2.coords t) ((dat2 V c).after 3 t) = _
  rw [after2_3]
  unfold out2_3
  rw [View.canon_unit_zero hz3]
  simp only [View.ld_unit_zero (S := S1x512x1024) hz3, View.ld_unit_zero (S := S1024x1024) hz2]
  obtain ⟨f0, f1, f2, f3, f4, f5, f6, f7, f8⟩ := idx_facts t
  funext y
  obtain ⟨z, r, e, rfl⟩ : ∃ (z : Fin 1) (r : Fin 512) (e : Fin 1024), y = ix3 z r e := ⟨y 0, y 1, y 2, eq_ix3 y⟩
  obtain rfl : z = 0 := Subsingleton.elim _ _
  refine (pay (iblk2 V c 0 t) (iblk2 V c 2 t) (iblk2 V c 1 t) 0 r e).trans ?_
  have e1 : ((cfg2.win 1).blk t).view.emb (ix3 (0 : Fin 1) r e) = ((cfg2.win 3).blk t).view.emb (ix3 (0 : Fin 1) r e) := by
    funext a; apply Fin.ext
    match a with
    | ⟨0, _⟩ => show win2_1.index t (0 : Fin 3) * 1 + 1 * (0 : Fin 1).val = win2_3.index t (0 : Fin 3) * 1 + 1 * (0 : Fin 1).val; omega
    | ⟨1, _⟩ => show win2_1.index t (1 : Fin 3) * 512 + 1 * r.val = win2_3.index t (1 : Fin 3) * 512 + 1 * r.val; omega
    | ⟨2, _⟩ => show win2_1.index t (2 : Fin 3) * 1024 + 1 * e.val = win2_3.index t (2 : Fin 3) * 1024 + 1 * e.val; omega
  have e0 : ∀ d : Fin 1024, ((cfg2.win 0).blk t).view.emb (ix3 (0 : Fin 1) r d)
      = ix3 (((cfg2.win 3).blk t).view.emb (ix3 (0 : Fin 1) r e) 0) (((cfg2.win 3).blk t).view.emb (ix3 (0 : Fin 1) r e) 1) d := by
    intro d; funext a; apply Fin.ext
    match a with
    | ⟨0, _⟩ => show win2_0.index t (0 : Fin 3) * 1 + 1 * (0 : Fin 1).val = win2_3.index t (0 : Fin 3) * 1 + 1 * (0 : Fin 1).val; omega
    | ⟨1, _⟩ => show win2_0.index t (1 : Fin 3) * 512 + 1 * r.val = win2_3.index t (1 : Fin 3) * 512 + 1 * r.val; omega
    | ⟨2, _⟩ => show win2_0.index t (2 : Fin 3) * 1024 + 1 * d.val = d.val; omega
  have e2 : ∀ d : Fin 1024, ((cfg2.win 2).blk t).view.emb (ix2 d e)
      = ix2 d (((cfg2.win 3).blk t).view.emb (ix3 (0 : Fin 1) r e) 2) := by
    intro d; funext a; apply Fin.ext
    match a with
    | ⟨0, _⟩ => show win2_2.index t (0 : Fin 2) * 1024 + 1 * d.val = d.val; omega
    | ⟨1, _⟩ => show win2_2.index t (1 : Fin 2) * 1024 + 1 * e.val = win2_3.index t (2 : Fin 3) * 1024 + 1 * e.val; omega
  exact at_index (V c main_v16) (V c main_arg0) (V c main_v3) (((cfg2.win 3).blk t).view.emb (ix3 (0 : Fin 1) r e))
    (((cfg2.win 1).blk t).view.emb (ix3 (0 : Fin 1) r e)) (fun d => ((cfg2.win 0).blk t).view.emb (ix3 (0 : Fin 1) r d))
    (fun d => ((cfg2.win 2).blk t).view.emb (ix2 d e)) e1 e0 e2

/-- An index of the array is in point `t`'s block iff each coordinate is in the block's range on its axis. -/
theorem mem_blk (t : Fin cfg2.N) (i : S4x4096x1024.Idx) :
    i ∈ ((cfg2.win 3).blk t).view.set ↔ ∀ a : Fin 3, win2_3.index t a * S1x512x1024.size a ≤ (i a).val
      ∧ (i a).val < win2_3.index t a * S1x512x1024.size a + S1x512x1024.size a := by
  show i ∈ ((View.whole main_v17).slice (win2_3.rect t)).set ↔ _
  rw [View.set_slice_whole, Rect.mem_set_unit]
  exact Iff.rfl

/-- Every index `(b, t, e)` of the result is in the block of the point `(b, t / 512)`. -/
theorem cover (i : S4x4096x1024.Idx) : ∃ t : Fin cfg2.N, (cfg2.win 3).flush t = true ∧ i ∈ ((cfg2.win 3).blk t).view.set := by
  have hi0 : (i 0).val < 4 := (i 0).isLt
  have hi1 : (i 1).val < 4096 := (i 1).isLt
  have hi2 : (i 2).val < 1024 := (i 2).isLt
  obtain ⟨t, ht⟩ := idx_onto ⟨(i 0).val, hi0⟩ ⟨(i 1).val / 512, by omega⟩
  have q0 : win2_3.index t (0 : Fin 3) = (i 0).val := congrFun ht 0
  have q1 : win2_3.index t (1 : Fin 3) = (i 1).val / 512 := congrFun ht 1
  have q2 : win2_3.index t (2 : Fin 3) = 0 := congrFun ht 2
  refine ⟨t, flush2_3 t, ?_⟩
  rw [mem_blk]
  intro a
  match a with
  | ⟨0, _⟩ => show win2_3.index t (0 : Fin 3) * 1 ≤ (i 0).val ∧ (i 0).val < win2_3.index t (0 : Fin 3) * 1 + 1; omega
  | ⟨1, _⟩ => show win2_3.index t (1 : Fin 3) * 512 ≤ (i 1).val ∧ (i 1).val < win2_3.index t (1 : Fin 3) * 512 + 512; omega
  | ⟨2, _⟩ => show win2_3.index t (2 : Fin 3) * 1024 ≤ (i 2).val ∧ (i 2).val < win2_3.index t (2 : Fin 3) * 1024 + 1024; omega

/-- The array the third region writes, as one function of the arrays it reads. -/
theorem array (V : (c : Dev nD) → (b : Ref sig .tc) → Buf (Elt Ideal) ((c : Thread nD τ).loc b)) (c : Dev nD) :
    (dat2 (F := Ideal) V c).arrAt 3 cfg2.N
      = Cert.Spec.stage3 (V c main_v16) (V c main_arg0) (V c main_v3) :=
  (dat2 (F := Ideal) V c).arrAt_eq_of_cover 3 _ (fun t _ => flushed_eq V c t) cover

end Cert.KernelIdeal.Region2

end
-- ==== Proof.KValue.lean ====
/-
  The idealized kernel's result as ONE function of its four arguments. The buffer contents are followed through the
  program's six segments: the first stretch transposes the weights; region 0 writes the projection (`Spec.stage1` with the
  kernel's denominator); the second stretch lays it out head by head; region 1 writes the attention output
  (`Spec.stage2`); the third stretch puts the heads side by side; region 2 adds the output projection to `x`
  (`Spec.stage3`). The arguments and the transposed weights are untouched in between. Composed: `Spec.whole Spec.denK`.
-/
import proofs.«180778_j58944131170446_1_alg».proof.Proof.Gen.KernelIdeal.Frame
import proofs.«180778_j58944131170446_1_alg».proof.Proof.Spec
import proofs.«180778_j58944131170446_1_alg».proof.Proof.Glue
import proofs.«180778_j58944131170446_1_alg».proof.Proof.Region0
import proofs.«180778_j58944131170446_1_alg».proof.Proof.Region1
import proofs.«180778_j58944131170446_1_alg».proof.Proof.Region2

set_option maxRecDepth 16384

noncomputable section

namespace Cert.KernelIdeal.KValue

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-! ## Region 0's entry and exit -/

theorem V1_arg0 : V1 m ρ c main_arg0 = m ((c : Thread nD τ).loc main_arg0) := Glue.host0_arg0 (W0 m ρ c)
theorem V1_arg1 : V1 m ρ c main_arg1 = m ((c : Thread nD τ).loc main_arg1) := Glue.host0_arg1 (W0 m ρ c)
theorem V1_v1 : V1 m ρ c main_v1 = Cert.Spec.tr (n := 3072) (m := 1024) (m ((c : Thread nD τ).loc main_arg2)) :=
  Glue.host0_v1 (W0 m ρ c)
theorem V1_v3 : V1 m ρ c main_v3 = Cert.Spec.tr (n := 1024) (m := 1024) (m ((c : Thread nD τ).loc main_arg3)) :=
  Glue.host0_v3 (W0 m ρ c)

/-- The projection, as region 0 leaves it. -/
theorem W2_v4 : W2 m ρ c (Proc.devRef .tc main_v4)
    = Cert.Spec.stage1 Cert.Spec.denK (m ((c : Thread nD τ).loc main_arg0)) (m ((c : Thread nD τ).loc main_arg1))
        (Cert.Spec.tr (n := 3072) (m := 1024) (m ((c : Thread nD τ).loc main_arg2))) := by
  refine (W2_arr m ρ c 3).trans ?_
  rw [Region0.array (V1 m ρ) c, V1_arg0 m ρ c, V1_arg1 m ρ c, V1_v1 m ρ c]

theorem W2_v3 : W2 m ρ c (Proc.devRef .tc main_v3)
    = Cert.Spec.tr (n := 1024) (m := 1024) (m ((c : Thread nD τ).loc main_arg3)) :=
  (W2_of_ne m ρ c main_v3 (by decide)).trans (V1_v3 m ρ c)

theorem W2_arg0 : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (V1_arg0 m ρ c)

/-! ## Region 1's entry and exit -/

theorem V3_v9 : V3 m ρ c main_v9 = Cert.Spec.heads 0 (W2 m ρ c (Proc.devRef .tc main_v4)) := Glue.host1_v9 (W2 m ρ c)
theorem V3_v11 : V3 m ρ c main_v11 = Cert.Spec.heads 1 (W2 m ρ c (Proc.devRef .tc main_v4)) := Glue.host1_v11 (W2 m ρ c)
theorem V3_v13 : V3 m ρ c main_v13 = Cert.Spec.heads 2 (W2 m ρ c (Proc.devRef .tc main_v4)) := Glue.host1_v13 (W2 m ρ c)

/-- The attention output head by head, as region 1 leaves it. -/
theorem W4_v14 : W4 m ρ c (Proc.devRef .tc main_v14)
    = Cert.Spec.stage2 (Cert.Spec.heads 0 (W2 m ρ c (Proc.devRef .tc main_v4))) (Cert.Spec.heads 1 (W2 m ρ c (Proc.devRef .tc main_v4)))
        (Cert.Spec.heads 2 (W2 m ρ c (Proc.devRef .tc main_v4))) := by
  refine (W4_arr m ρ c 3).trans ?_
  rw [Region1.array (V3 m ρ) c, V3_v9 m ρ c, V3_v11 m ρ c, V3_v13 m ρ c]

theorem W4_v3 : W4 m ρ c (Proc.devRef .tc main_v3)
    = Cert.Spec.tr (n := 1024) (m := 1024) (m ((c : Thread nD τ).loc main_arg3)) :=
  (W4_of_ne m ρ c main_v3 (by decide)).trans ((Glue.host1_v3 (W2 m ρ c)).trans (W2_v3 m ρ c))

theorem W4_arg0 : W4 m ρ c (Proc.devRef .tc main_arg0) = m ((c : Thread nD τ).loc main_arg0) :=
  (W4_of_ne m ρ c main_arg0 (by decide)).trans ((Glue.host1_arg0 (W2 m ρ c)).trans (W2_arg0 m ρ c))

/-! ## Region 2's entry and exit -/

theorem V5_v16 : V5 m ρ c main_v16 = Cert.Spec.flat (W4 m ρ c (Proc.devRef .tc main_v14)) := Glue.host2_v16 (W4 m ρ c)
theorem V5_v3 : V5 m ρ c main_v3 = Cert.Spec.tr (n := 1024) (m := 1024) (m ((c : Thread nD τ).loc main_arg3)) :=
  (Glue.host2_v3 (W4 m ρ c)).trans (W4_v3 m ρ c)
theorem V5_arg0 : V5 m ρ c main_arg0 = m ((c : Thread nD τ).loc main_arg0) :=
  (Glue.host2_arg0 (W4 m ρ c)).trans (W4_arg0 m ρ c)

/-- The result, as region 2 leaves it: the specification's whole, with the kernel's denominator. -/
theorem result : W6 m ρ c (Proc.devRef .tc main_v17)
    = Cert.Spec.whole Cert.Spec.denK (m ((c : Thread nD τ).loc main_arg0)) (m ((c : Thread nD τ).loc main_arg1))
        (m ((c : Thread nD τ).loc main_arg2)) (m ((c : Thread nD τ).loc main_arg3)) := by
  refine (W6_arr m ρ c 3).trans ?_
  rw [Region2.array (V5 m ρ) c, V5_v16 m ρ c, V5_v3 m ρ c, V5_arg0 m ρ c, W4_v14 m ρ c, W2_v4 m ρ c]
  rfl

end Cert.KernelIdeal.KValue

end
-- ==== Proof.RefTail.lean ====
/-
  The reference's last two stages, read one operation at a time: the attention output with the heads put side by side
  again is `Spec.flat` of the head-by-head output, and the result is `Spec.stage3` of it, of `x` and of the transposed
  output weights.
-/
import proofs.«180778_j58944131170446_1_alg».proof.Proof.Gen.ReferenceIdeal.Read
import proofs.«180778_j58944131170446_1_alg».proof.Proof.Spec
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.ShloMosaic.ValueIdx Idealize.SL.Sem
open Cert.ReferenceIdeal Cert.ReferenceIdeal.Read
open scoped BigOperators

namespace Cert.ReferenceIdeal.RefTail

/-- The heads side by side again. -/
theorem flat_eq (x0 : (⟨S4x4096x1024, .f32⟩ : BufTy).Contents (Elt Ideal)) (x1 : (⟨S1024, .f32⟩ : BufTy).Contents (Elt Ideal))
    (x2 : (⟨S3072x1024, .f32⟩ : BufTy).Contents (Elt Ideal)) :
    val_main_v35 (F := Ideal) x0 x1 x2 = Cert.Spec.flat (val_main_v33 (F := Ideal) x0 x1 x2) := by
  funext i
  refine (val_main_v35_apply x0 x1 x2 i).trans ?_
  refine (val_main_v34_apply x0 x1 x2 _).trans ?_
  generalize val_main_v33 (F := Ideal) x0 x1 x2 = A
  show A (idx_main_v34 (idx_main_v35 i)) = A _
  refine congrArg A ?_
  have h0 : (i 0).val < 4 := (i 0).isLt
  have h1 : (i 1).val < 4096 := (i 1).isLt
  have h2 : (i 2).val < 1024 := (i 2).isLt
  funext a; apply Fin.ext
  match a with
  | ⟨0, _⟩ => show (((i 0).val * 4096 + (i 1).val) * 1024 + (i 2).val) / 4194304 = (i 0).val; omega
  | ⟨1, _⟩ => show (((i 0).val * 4096 + (i 1).val) * 1024 + (i 2).val) / 64 % 16 = (i 2).val / 64; omega
  | ⟨2, _⟩ => show (((i 0).val * 4096 + (i 1).val) * 1024 + (i 2).val) / 1024 % 4096 = (i 1).val; omega
  | ⟨3, _⟩ => show (((i 0).val * 4096 + (i 1).val) * 1024 + (i 2).val) % 64 = (i 2).val % 64; omega

/-- The output projection and the residual. -/
theorem stage3_eq (x0 : (⟨S4x4096x1024, .f32⟩ : BufTy).Contents (Elt Ideal)) (x1 : (⟨S1024, .f32⟩ : BufTy).Contents (Elt Ideal))
    (x2 : (⟨S3072x1024, .f32⟩ : BufTy).Contents (Elt Ideal)) (x3 : (⟨S1024x1024, .f32⟩ : BufTy).Contents (Elt Ideal)) :
    val_main_v37 (F := Ideal) x0 x1 x2 x3
      = Cert.Spec.stage3 (val_main_v35 (F := Ideal) x0 x1 x2) x0 (Cert.Spec.tr (n := 1024) (m := 1024) x3) := by
  funext i
  refine (val_main_v37_apply x0 x1 x2 x3 i).trans ?_
  show x0 i + val_main_v36 (F := Ideal) x0 x1 x2 x3 i = x0 i + _
  refine congrArg (x0 i + ·) ?_
  refine (val_main_v36_apply x0 x1 x2 x3 i).trans ?_
  generalize val_main_v35 (F := Ideal) x0 x1 x2 = A
  refine Finset.sum_congr rfl fun k _ => ?_
  have el : lidx_main_v36 i k = (ix3 (i 0) (i 1) k : S4x4096x1024.Idx) :=
    funext fun a => by match a with | ⟨0, _⟩ => rfl | ⟨1, _⟩ => rfl | ⟨2, _⟩ => rfl
  have er : ridx_main_v36 i k = (ix2 (i 2) k : S1024x1024.Idx) :=
    funext fun a => by match a with | ⟨0, _⟩ => rfl | ⟨1, _⟩ => rfl
  rw [el, er]
  rfl

end Cert.ReferenceIdeal.RefTail

end
-- ==== Proof.RefStage2.lean ====
/-
  The reference's linear attention, read one operation at a time: the head-by-head output is `Spec.stage2` of the
  reference's own queries, keys and values. The reference takes the maximum along the sequence by a fold from −∞ and
  then once more against −∞, which changes nothing.
-/
import proofs.«180778_j58944131170446_1_alg».proof.Proof.Gen.ReferenceIdeal.Read
import proofs.«180778_j58944131170446_1_alg».proof.Proof.Spec
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.ShloMosaic.ValueIdx Idealize.SL.Sem
open Cert.ReferenceIdeal Cert.ReferenceIdeal.Read
open scoped BigOperators

namespace Cert.ReferenceIdeal.RefStage2

/-! ## The maximum along the sequence -/

/-- A reduced index (b, h, d) with the sequence coordinate `k` put back is (b, h, k, d). -/
theorem lift_seq (hR : S4x16x4096x64.Reduces [2] S4x16x64) (b : Fin 4) (h : Fin 16) (d : Fin 64)
    (k : Fin (S4x16x4096x64.size 2)) : hR.lift (ix3 b h d) k = ix4 b h (⟨k.val, k.isLt⟩ : Fin 4096) d := by
  funext c; apply Fin.ext
  fin_cases c <;> rfl

/-- The reduce with a maximum body along the sequence, from an initial value that is −∞, at (b, h, d): the fold of
    `max` from −∞ over the 4096 entries of that column. -/
theorem hostMax (y : S4x16x4096x64.Idx → Ideal .f32) (init : S_.Idx → Ideal .f32)
    (h' : S4x16x4096x64.ReducesTo [2] S4x16x64) (hu : 0 < S_.numel)
    (hinit : init (Shape.Idx.first hu) = Ideal.ofBits .f32 0xFF800000#32) (b : Fin 4) (h : Fin 16) (d : Fin 64) :
    Host.reduce FloatOps.maximumf y init h' hu (ix3 b h d)
      = (Finset.univ : Finset (Fin 4096)).fold max (Ideal.ofBits .f32 0xFF800000#32) (fun t => y (ix4 b h t d)) := by
  have hR : S4x16x4096x64.Reduces [2] S4x16x64 := by decide
  rw [Host.reduce_eq_fold_single FloatOps.maximumf y init h' hR hu, hinit]
  have hf : (y ∘ hR.lift (ix3 b h d)) = fun t : Fin 4096 => y (ix4 b h t d) :=
    funext fun k => congrArg y (lift_seq hR b h d k)
  exact congrArg (fun f => Finset.fold max (Ideal.ofBits .f32 0xFF800000#32) f (Finset.univ : Finset (Fin 4096))) hf

/-! ## The operations of the softmax along the sequence, one at a time -/

section Chain
variable (x0 : (⟨S4x4096x1024, .f32⟩ : BufTy).Contents (Elt Ideal)) (x1 : (⟨S1024, .f32⟩ : BufTy).Contents (Elt Ideal))
  (x2 : (⟨S3072x1024, .f32⟩ : BufTy).Contents (Elt Ideal))

/-- The keys times the broadcast constant 1/8 are the specification's scaled keys. -/
theorem v20_at (b : Fin 4) (h : Fin 16) (t : Fin 4096) (d : Fin 64) :
    val_main_v20 (F := Ideal) x0 x1 x2 (ix4 b h t d) = Cert.Spec.kscaled (val_main_v16 (F := Ideal) x0 x1 x2) b h t d := by
  rw [val_main_v20_apply, val_main_v19_apply, val_main_cst_1_apply]
  generalize val_main_v16 (F := Ideal) x0 x1 x2 = K
  rfl

/-- Their maximum along the sequence, from −∞. -/
theorem v21_at (b : Fin 4) (h : Fin 16) (d : Fin 64) :
    val_main_v21 (F := Ideal) x0 x1 x2 (ix3 b h d) = Cert.Spec.kmax (val_main_v16 (F := Ideal) x0 x1 x2) b h d := by
  unfold val_main_v21
  refine (hostMax (val_main_v20 (F := Ideal) x0 x1 x2) _ _ _ (val_main_cst_2_apply _) b h d).trans ?_
  unfold Cert.Spec.kmax Cert.Spec.ninf
  exact congrArg (fun f => (Finset.univ : Finset (Fin 4096)).fold max (Ideal.ofBits .f32 0xFF800000#32) f)
    (funext fun t => v20_at x0 x1 x2 b h t d)

/-- The maximum taken once more against −∞ is itself. -/
theorem v23_at (b : Fin 4) (h : Fin 16) (d : Fin 64) :
    val_main_v23 (F := Ideal) x0 x1 x2 (ix3 b h d) = Cert.Spec.kmax (val_main_v16 (F := Ideal) x0 x1 x2) b h d := by
  rw [val_main_v23_apply, val_main_v22_apply, val_main_cst_3_apply, v21_at]
  generalize Cert.Spec.kmax (val_main_v16 (F := Ideal) x0 x1 x2) b h d = y
  show max (Ideal.ofBits .f32 0xFF800000#32) y = y
  simp [Ideal.ofBits, Ideal.ieee]

/-- Broadcast back over the sequence, it reads the column's maximum at every position. -/
theorem v25_at (b : Fin 4) (h : Fin 16) (t : Fin 4096) (d : Fin 64) :
    val_main_v25 (F := Ideal) x0 x1 x2 (ix4 b h t d) = Cert.Spec.kmax (val_main_v16 (F := Ideal) x0 x1 x2) b h d := by
  rw [val_main_v25_apply, val_main_v24_apply]
  have e : idx_main_v24 (idx_main_v25 (ix4 b h t d)) = ix3 b h d :=
    funext fun a => Fin.ext (by match a with | ⟨0, _⟩ => rfl | ⟨1, _⟩ => rfl | ⟨2, _⟩ => rfl)
  rw [e, v23_at]

/-- The exponentials of the differences. -/
theorem v27_at (b : Fin 4) (h : Fin 16) (t : Fin 4096) (d : Fin 64) :
    val_main_v27 (F := Ideal) x0 x1 x2 (ix4 b h t d) = Cert.Spec.kexp (val_main_v16 (F := Ideal) x0 x1 x2) b h t d := by
  rw [val_main_v27_apply, val_main_v26_apply, v20_at, v25_at]
  unfold Cert.Spec.kexp
  generalize Cert.Spec.kscaled (val_main_v16 (F := Ideal) x0 x1 x2) b h t d = s
  generalize Cert.Spec.kmax (val_main_v16 (F := Ideal) x0 x1 x2) b h d = m
  rfl

/-- Their sum along the sequence: the initial value is zero. -/
theorem v28_at (b : Fin 4) (h : Fin 16) (d : Fin 64) :
    val_main_v28 (F := Ideal) x0 x1 x2 (ix3 b h d) = ∑ t : Fin 4096, Cert.Spec.kexp (val_main_v16 (F := Ideal) x0 x1 x2) b h t d := by
  rw [val_main_v28_apply, val_main_cst_4_apply, Ideal.ofBits_def, Ideal.ofBits_zero_f32, zero_add]
  refine Finset.sum_congr rfl fun k _ => ?_
  have e : idx_main_v28 (ix3 b h d) k = ix4 b h k d :=
    funext fun a => Fin.ext (by match a with | ⟨0, _⟩ => rfl | ⟨1, _⟩ => rfl | ⟨2, _⟩ => rfl | ⟨3, _⟩ => rfl)
  rw [e, v27_at]

/-- Broadcast back over the sequence, it reads the column's sum at every position. -/
theorem v30_at (b : Fin 4) (h : Fin 16) (t : Fin 4096) (d : Fin 64) :
    val_main_v30 (F := Ideal) x0 x1 x2 (ix4 b h t d) = ∑ t' : Fin 4096, Cert.Spec.kexp (val_main_v16 (F := Ideal) x0 x1 x2) b h t' d := by
  rw [val_main_v30_apply, val_main_v29_apply]
  have e : idx_main_v29 (idx_main_v30 (ix4 b h t d)) = ix3 b h d :=
    funext fun a => Fin.ext (by match a with | ⟨0, _⟩ => rfl | ⟨1, _⟩ => rfl | ⟨2, _⟩ => rfl)
  rw [e, v28_at]

/-- The quotient is the specification's normalised keys. -/
theorem v31_at (b : Fin 4) (h : Fin 16) (t : Fin 4096) (d : Fin 64) :
    val_main_v31 (F := Ideal) x0 x1 x2 (ix4 b h t d) = Cert.Spec.knorm (val_main_v16 (F := Ideal) x0 x1 x2) b h t d := by
  rw [val_main_v31_apply, v27_at, v30_at]
  unfold Cert.Spec.knorm
  exact Ideal.hostDivf_def _ _

/-- The contraction with the values along the sequence is the context matrix. -/
theorem v32_at (b : Fin 4) (h : Fin 16) (d e : Fin 64) :
    val_main_v32 (F := Ideal) x0 x1 x2 (ix4 b h d e) = Cert.Spec.ctx (val_main_v16 (F := Ideal) x0 x1 x2) (val_main_v18 (F := Ideal) x0 x1 x2) b h d e := by
  rw [val_main_v32_apply]
  unfold Cert.Spec.ctx
  refine Finset.sum_congr rfl fun k _ => ?_
  have el : lidx_main_v32 (ix4 b h d e) k = ix4 b h k d :=
    funext fun a => Fin.ext (by match a with | ⟨0, _⟩ => rfl | ⟨1, _⟩ => rfl | ⟨2, _⟩ => rfl | ⟨3, _⟩ => rfl)
  have er : ridx_main_v32 (ix4 b h d e) k = ix4 b h k e :=
    funext fun a => Fin.ext (by match a with | ⟨0, _⟩ => rfl | ⟨1, _⟩ => rfl | ⟨2, _⟩ => rfl | ⟨3, _⟩ => rfl)
  rw [el, er, v31_at]

/-- The contraction of the queries with the context matrix is the specification's stage 2. -/
theorem v33_at (b : Fin 4) (h : Fin 16) (t : Fin 4096) (e : Fin 64) :
    val_main_v33 (F := Ideal) x0 x1 x2 (ix4 b h t e) = Cert.Spec.stage2 (val_main_v14 (F := Ideal) x0 x1 x2) (val_main_v16 (F := Ideal) x0 x1 x2) (val_main_v18 (F := Ideal) x0 x1 x2) (ix4 b h t e) := by
  rw [val_main_v33_apply]
  show _ = ∑ d : Fin 64, (val_main_v14 (F := Ideal) x0 x1 x2) (ix4 b h t d) * Cert.Spec.ctx (val_main_v16 (F := Ideal) x0 x1 x2) (val_main_v18 (F := Ideal) x0 x1 x2) b h d e
  refine Finset.sum_congr rfl fun k _ => ?_
  have el : lidx_main_v33 (ix4 b h t e) k = ix4 b h t k :=
    funext fun a => Fin.ext (by match a with | ⟨0, _⟩ => rfl | ⟨1, _⟩ => rfl | ⟨2, _⟩ => rfl | ⟨3, _⟩ => rfl)
  have er : ridx_main_v33 (ix4 b h t e) k = ix4 b h k e :=
    funext fun a => Fin.ext (by match a with | ⟨0, _⟩ => rfl | ⟨1, _⟩ => rfl | ⟨2, _⟩ => rfl | ⟨3, _⟩ => rfl)
  rw [el, er, v32_at]

end Chain

theorem stage2_eq (x0 : (⟨S4x4096x1024, .f32⟩ : BufTy).Contents (Elt Ideal)) (x1 : (⟨S1024, .f32⟩ : BufTy).Contents (Elt Ideal))
    (x2 : (⟨S3072x1024, .f32⟩ : BufTy).Contents (Elt Ideal)) :
    val_main_v33 (F := Ideal) x0 x1 x2
      = Cert.Spec.stage2 (val_main_v14 (F := Ideal) x0 x1 x2) (val_main_v16 (F := Ideal) x0 x1 x2) (val_main_v18 (F := Ideal) x0 x1 x2) := by
  funext i
  obtain ⟨b, h, t, e, rfl⟩ : ∃ (b : Fin 4) (h : Fin 16) (t : Fin 4096) (e : Fin 64), i = ix4 b h t e :=
    ⟨i 0, i 1, i 2, i 3, eq_ix4 i⟩
  exact v33_at x0 x1 x2 b h t e

end Cert.ReferenceIdeal.RefStage2

end
-- ==== Proof.RefValue.lean ====
/-
  The reference program's result, read one operation at a time, is `Spec.whole Spec.denR` of its four arguments.
-/
import proofs.«180778_j58944131170446_1_alg».proof.Proof.Gen.ReferenceIdeal.Read
import proofs.«180778_j58944131170446_1_alg».proof.Proof.Spec
import proofs.«180778_j58944131170446_1_alg».proof.Proof.RefTail
import proofs.«180778_j58944131170446_1_alg».proof.Proof.RefStage2
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.ShloMosaic.ValueIdx Idealize.SL.Sem
open Cert.ReferenceIdeal Cert.ReferenceIdeal.Read
open scoped BigOperators

namespace Cert.ReferenceIdeal.RefValue

/-! ## Stage 1: the normalised rows and their projection -/

/-- The denominator the reference divides row `(b, t)` by: the root of the sum of squares, times 1/32, plus ε. -/
theorem den_apply (x0 : (⟨S4x4096x1024, .f32⟩ : BufTy).Contents (Elt Ideal)) (b : Fin 4) (t : Fin 4096) (k : Fin 1024) :
    val_main_v8 (F := Ideal) x0 (ix3 b t k) = Spec.denR x0 b t := by
  have e8 : idx_main_v8 (ix3 b t k) = ix3 b t (0 : Fin 1) :=
    funext fun a => Fin.ext (by match a with | ⟨0, _⟩ => rfl | ⟨1, _⟩ => rfl | ⟨2, _⟩ => rfl)
  have e2 : idx_main_call0_v2 (ix3 b t (0 : Fin 1)) = ix2 b t :=
    funext fun a => Fin.ext (by match a with | ⟨0, _⟩ => rfl | ⟨1, _⟩ => rfl)
  have e1 : ∀ k' : Fin 1024, idx_main_call0_v1 (ix2 b t) k' = ix3 b t k' := fun k' =>
    funext fun a => Fin.ext (by match a with | ⟨0, _⟩ => rfl | ⟨1, _⟩ => rfl | ⟨2, _⟩ => rfl)
  rw [val_main_v8_apply, e8, val_main_v7_apply, val_main_v2_apply, val_main_v0_apply, val_main_call0_v2_apply, e2,
    val_main_call0_v1_apply, val_main_v1_apply, val_main_cst_apply, val_main_v6_apply, val_main_cst_0_apply,
    val_main_call0_cst_apply]
  simp only [e1, val_main_call0_v0_apply, Ideal.ofBits_def, Ideal.ofBits_zero_f32, zero_add, Ideal.mulf_def,
    Ideal.addf_def, Ideal.hostUnary_sqrt_def]
  rfl

/-- The normalised row at `(b, t, k)`. -/
theorem xn_apply (x0 : (⟨S4x4096x1024, .f32⟩ : BufTy).Contents (Elt Ideal)) (x1 : (⟨S1024, .f32⟩ : BufTy).Contents (Elt Ideal)) (b : Fin 4) (t : Fin 4096) (k : Fin 1024) :
    val_main_v9 (F := Ideal) x0 x1 (ix3 b t k) = Spec.xn Spec.denR x0 x1 b t k := by
  have e4 : idx_main_v3 (idx_main_v4 (ix3 b t k)) = ix1 k :=
    funext fun a => Fin.ext (by match a with | ⟨0, _⟩ => rfl)
  rw [val_main_v9_apply, den_apply, val_main_v5_apply, val_main_v4_apply, val_main_v3_apply, e4]
  rfl

/-- The projection is the contraction of the normalised rows with the transposed weight matrix. -/
theorem stage1_eq (x0 : (⟨S4x4096x1024, .f32⟩ : BufTy).Contents (Elt Ideal)) (x1 : (⟨S1024, .f32⟩ : BufTy).Contents (Elt Ideal)) (x2 : (⟨S3072x1024, .f32⟩ : BufTy).Contents (Elt Ideal)) :
    val_main_v10 (F := Ideal) x0 x1 x2 = Spec.stage1 Spec.denR x0 x1 (Spec.tr x2) := by
  funext i
  obtain ⟨b, t, e, rfl⟩ : ∃ (b : Fin 4) (t : Fin 4096) (e : Fin 3072), i = ix3 b t e := ⟨i 0, i 1, i 2, eq_ix3 i⟩
  rw [val_main_v10_apply]
  refine Finset.sum_congr rfl fun k _ => ?_
  have el : lidx_main_v10 (ix3 b t e) k = ix3 b t k :=
    funext fun a => Fin.ext (by match a with | ⟨0, _⟩ => rfl | ⟨1, _⟩ => rfl | ⟨2, _⟩ => rfl)
  have er : ridx_main_v10 (ix3 b t e) k = ix2 e k :=
    funext fun a => Fin.ext (by match a with | ⟨0, _⟩ => rfl | ⟨1, _⟩ => rfl)
  rw [el, er, xn_apply]
  rfl

/-! ## The heads: reshape, transpose, slice, reshape -/

/-- Group `g` of the projection, head by head: the transposed five-axis array at `(g, b, h, t, d)` is the projection at
    `(b, t, g·1024 + h·64 + d)`. -/
theorem split_apply (x0 : (⟨S4x4096x1024, .f32⟩ : BufTy).Contents (Elt Ideal)) (x1 : (⟨S1024, .f32⟩ : BufTy).Contents (Elt Ideal)) (x2 : (⟨S3072x1024, .f32⟩ : BufTy).Contents (Elt Ideal)) (g : Fin 3) (b : Fin 4) (h : Fin 16) (t : Fin 4096) (d : Fin 64) :
    val_main_v12 (F := Ideal) x0 x1 x2 (ix5 g b h t d)
      = Spec.heads g (val_main_v10 (F := Ideal) x0 x1 x2) (ix4 b h t d) := by
  have hg : g.val < 3 := g.isLt
  have hb : b.val < 4 := b.isLt
  have hh : h.val < 16 := h.isLt
  have ht : t.val < 4096 := t.isLt
  have hd : d.val < 64 := d.isLt
  have e12 : idx_main_v12 (ix5 g b h t d) = ix5 b t g h d :=
    funext fun a => Fin.ext (by
      match a with | ⟨0, _⟩ => rfl | ⟨1, _⟩ => rfl | ⟨2, _⟩ => rfl | ⟨3, _⟩ => rfl | ⟨4, _⟩ => rfl)
  have e11 : idx_main_v11 (ix5 b t g h d)
      = ix3 b t (⟨g.val * 1024 + h.val * 64 + d.val, by omega⟩ : Fin 3072) :=
    funext fun a => Fin.ext (by
      match a with
      | ⟨0, _⟩ =>
        show ((((b.val * 4096 + t.val) * 3 + g.val) * 16 + h.val) * 64 + d.val) / 12582912 = b.val
        omega
      | ⟨1, _⟩ =>
        show ((((b.val * 4096 + t.val) * 3 + g.val) * 16 + h.val) * 64 + d.val) / 3072 % 4096 = t.val
        omega
      | ⟨2, _⟩ =>
        show ((((b.val * 4096 + t.val) * 3 + g.val) * 16 + h.val) * 64 + d.val) % 3072
          = g.val * 1024 + h.val * 64 + d.val
        omega)
  rw [val_main_v12_apply, e12, val_main_v11_apply, e11]
  rfl

/-- A four-axis index read through the reshape that drops a leading unit axis. -/
theorem unit_reshape (b : Fin 4) (h : Fin 16) (t : Fin 4096) (d : Fin 64) :
    idx_main_v14 (ix4 b h t d) = ix5 (0 : Fin 1) b h t d := by
  have hb : b.val < 4 := b.isLt
  have hh : h.val < 16 := h.isLt
  have ht : t.val < 4096 := t.isLt
  have hd : d.val < 64 := d.isLt
  exact funext fun a => Fin.ext (by
    match a with
    | ⟨0, _⟩ => rfl
    | ⟨1, _⟩ =>
      show (((b.val * 16 + h.val) * 4096 + t.val) * 64 + d.val) / 4194304 % 4 = b.val
      omega
    | ⟨2, _⟩ =>
      show (((b.val * 16 + h.val) * 4096 + t.val) * 64 + d.val) / 262144 % 16 = h.val
      omega
    | ⟨3, _⟩ =>
      show (((b.val * 16 + h.val) * 4096 + t.val) * 64 + d.val) / 64 % 4096 = t.val
      omega
    | ⟨4, _⟩ =>
      show (((b.val * 16 + h.val) * 4096 + t.val) * 64 + d.val) % 64 = d.val
      omega)

/-- The queries are group 0 of the projection. -/
theorem heads0_eq (x0 : (⟨S4x4096x1024, .f32⟩ : BufTy).Contents (Elt Ideal)) (x1 : (⟨S1024, .f32⟩ : BufTy).Contents (Elt Ideal)) (x2 : (⟨S3072x1024, .f32⟩ : BufTy).Contents (Elt Ideal)) :
    val_main_v14 (F := Ideal) x0 x1 x2 = Spec.heads 0 (val_main_v10 (F := Ideal) x0 x1 x2) := by
  funext j
  obtain ⟨b, h, t, d, rfl⟩ : ∃ (b : Fin 4) (h : Fin 16) (t : Fin 4096) (d : Fin 64), j = ix4 b h t d :=
    ⟨j 0, j 1, j 2, j 3, eq_ix4 j⟩
  have e13 : idx_main_v13 (ix5 (0 : Fin 1) b h t d) = ix5 (0 : Fin 3) b h t d :=
    funext fun a => Fin.ext (by
      match a with | ⟨0, _⟩ => rfl | ⟨1, _⟩ => rfl | ⟨2, _⟩ => rfl | ⟨3, _⟩ => rfl | ⟨4, _⟩ => rfl)
  rw [val_main_v14_apply, unit_reshape, val_main_v13_apply, e13, split_apply]

/-- The keys are group 1 of the projection. -/
theorem heads1_eq (x0 : (⟨S4x4096x1024, .f32⟩ : BufTy).Contents (Elt Ideal)) (x1 : (⟨S1024, .f32⟩ : BufTy).Contents (Elt Ideal)) (x2 : (⟨S3072x1024, .f32⟩ : BufTy).Contents (Elt Ideal)) :
    val_main_v16 (F := Ideal) x0 x1 x2 = Spec.heads 1 (val_main_v10 (F := Ideal) x0 x1 x2) := by
  funext j
  obtain ⟨b, h, t, d, rfl⟩ : ∃ (b : Fin 4) (h : Fin 16) (t : Fin 4096) (d : Fin 64), j = ix4 b h t d :=
    ⟨j 0, j 1, j 2, j 3, eq_ix4 j⟩
  have e15 : idx_main_v15 (ix5 (0 : Fin 1) b h t d) = ix5 (1 : Fin 3) b h t d :=
    funext fun a => Fin.ext (by
      match a with | ⟨0, _⟩ => rfl | ⟨1, _⟩ => rfl | ⟨2, _⟩ => rfl | ⟨3, _⟩ => rfl | ⟨4, _⟩ => rfl)
  rw [val_main_v16_apply, show idx_main_v16 (ix4 b h t d) = ix5 (0 : Fin 1) b h t d from unit_reshape b h t d,
    val_main_v15_apply, e15, split_apply]

/-- The values are group 2 of the projection. -/
theorem heads2_eq (x0 : (⟨S4x4096x1024, .f32⟩ : BufTy).Contents (Elt Ideal)) (x1 : (⟨S1024, .f32⟩ : BufTy).Contents (Elt Ideal)) (x2 : (⟨S3072x1024, .f32⟩ : BufTy).Contents (Elt Ideal)) :
    val_main_v18 (F := Ideal) x0 x1 x2 = Spec.heads 2 (val_main_v10 (F := Ideal) x0 x1 x2) := by
  funext j
  obtain ⟨b, h, t, d, rfl⟩ : ∃ (b : Fin 4) (h : Fin 16) (t : Fin 4096) (d : Fin 64), j = ix4 b h t d :=
    ⟨j 0, j 1, j 2, j 3, eq_ix4 j⟩
  have e17 : idx_main_v17 (ix5 (0 : Fin 1) b h t d) = ix5 (2 : Fin 3) b h t d :=
    funext fun a => Fin.ext (by
      match a with | ⟨0, _⟩ => rfl | ⟨1, _⟩ => rfl | ⟨2, _⟩ => rfl | ⟨3, _⟩ => rfl | ⟨4, _⟩ => rfl)
  rw [val_main_v18_apply, show idx_main_v18 (ix4 b h t d) = ix5 (0 : Fin 1) b h t d from unit_reshape b h t d,
    val_main_v17_apply, e17, split_apply]

/-- The reference's last stage is the specification's whole, with the reference's denominator. -/
theorem value (x0 : (⟨S4x4096x1024, .f32⟩ : BufTy).Contents (Elt Ideal)) (x1 : (⟨S1024, .f32⟩ : BufTy).Contents (Elt Ideal))
    (x2 : (⟨S3072x1024, .f32⟩ : BufTy).Contents (Elt Ideal)) (x3 : (⟨S1024x1024, .f32⟩ : BufTy).Contents (Elt Ideal)) :
    val_main_v37 (F := Ideal) x0 x1 x2 x3 = Cert.Spec.whole Cert.Spec.denR x0 x1 x2 x3 := by
  rw [RefTail.stage3_eq, RefTail.flat_eq, RefStage2.stage2_eq, heads0_eq, heads1_eq, heads2_eq, stage1_eq]
  rfl

end Cert.ReferenceIdeal.RefValue

end
-- ==== Proof.lean ====
/-
  Linear self-attention with an RMS normalisation in front, on the extended reals: the kernel's three pallas regions
  (normalise and project; linear attention per batch and head, with a softmax of the keys ALONG THE SEQUENCE; output
  projection and residual) against the plain reference.

  The two programs differ in one place only: the kernel normalises a row by `√(Σx²/1024) + ε`, the reference by
  `√(Σx²) · (1/32) + ε`. A sum of squares is nonnegative, also with infinite entries, and there
  `√(S/1024) = √S · (1/32)` (`Proof/SpecLaw.lean`); every other difference is a matter of layout (the order of the weight
  matrices' axes, heads side by side or head by head, blocks of rows) or of the order of a finite sum, and a change
  of float format is the identity here. Both results are `Spec.whole` (`Proof/Spec.lean`) of the four arguments:
  the kernel's by following the buffers through its six segments (`Proof/KRun.lean`, `Proof/KValue.lean`,
  `Proof/Glue.lean`, `Proof/Region0.lean` … `Proof/Region2.lean`), the reference's one host operation at a time
  (`Proof/RefValue.lean`). The precondition (finite inputs) is not needed for the equality and is not opened.

  The three frames: the kernels' are the generated ones; the reference's is its generated run with the result dropped.
  The idealization rewrote no operation, so `preserves` is `True`.
-/
import proofs.«180778_j58944131170446_1_alg».proof.Defs
import proofs.«180778_j58944131170446_1_alg».proof.Proof.Gen.Kernel
import proofs.«180778_j58944131170446_1_alg».proof.Proof.Gen.Kernel.Skeleton
import proofs.«180778_j58944131170446_1_alg».proof.Proof.Gen.Kernel.Launch
import proofs.«180778_j58944131170446_1_alg».proof.Proof.Gen.Kernel.Points
import proofs.«180778_j58944131170446_1_alg».proof.Proof.Gen.Kernel.Frame
import proofs.«180778_j58944131170446_1_alg».proof.Proof.Gen.KernelIdeal
import proofs.«180778_j58944131170446_1_alg».proof.Proof.Gen.KernelIdeal.Skeleton
import proofs.«180778_j58944131170446_1_alg».proof.Proof.Gen.KernelIdeal.Launch
import proofs.«180778_j58944131170446_1_alg».proof.Proof.Gen.KernelIdeal.Points
import proofs.«180778_j58944131170446_1_alg».proof.Proof.Gen.KernelIdeal.Frame
import proofs.«180778_j58944131170446_1_alg».proof.Proof.Gen.ReferenceIdeal
import proofs.«180778_j58944131170446_1_alg».proof.Proof.Gen.ReferenceIdeal.Run
import proofs.«180778_j58944131170446_1_alg».proof.Proof.Gen.ReferenceIdeal.Read
import proofs.«180778_j58944131170446_1_alg».proof.Proof.Gen.Pre_finite_inputs
import proofs.«180778_j58944131170446_1_alg».proof.Proof.Spec
import proofs.«180778_j58944131170446_1_alg».proof.Proof.SpecLaw
import proofs.«180778_j58944131170446_1_alg».proof.Proof.KRun
import proofs.«180778_j58944131170446_1_alg».proof.Proof.KValue
import proofs.«180778_j58944131170446_1_alg».proof.Proof.RefValue
import Idealize.ShloMosaic.Adequacy
import Idealize.ShloMosaic.Init

noncomputable section

namespace Cert.Proof

open Idealize.ShloMosaic Idealize.ShloMosaic.TcCoe Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- From memories that agree on the arguments both programs end at `Spec.whole` of them: the kernel with its own
    denominator, the reference with its own, and the two denominators are one function. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.Spec.whole Cert.Spec.denK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.KValue.result m ρ c), (h c).2⟩)
      (Cert.KernelIdeal.KRun.run (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v37_eq, Cert.ReferenceIdeal.RefValue.value,
      ← Cert.Spec.whole_den_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
